-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1000000 32) (main_arg2 : FVec F S64x128 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1000000 : Shape := ⟨2, ![2, 1000000]⟩
abbrev S64x128 : Shape := ⟨2, ![64, 128]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S128x64 : Shape := ⟨2, ![128, 64]⟩
abbrev S1100000x64 : Shape := ⟨2, ![1100000, 64]⟩
abbrev S1x64 : Shape := ⟨2, ![1, 64]⟩

abbrev nBuf : Space → Nat
  | .hbm => 49
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S100000, .i32⟩
  | .hbm, ⟨13, _⟩ => ⟨S1100000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S_, .i32⟩
  | .hbm, ⟨32, _⟩ => ⟨S1100000, .i32⟩
  | .hbm, ⟨33, _⟩ => ⟨S1100000, .i1⟩
  | .hbm, ⟨34, _⟩ => ⟨S_, .i32⟩
  | .hbm, ⟨35, _⟩ => ⟨S1100000, .i32⟩
  | .hbm, ⟨36, _⟩ => ⟨S1100000, .i32⟩
  | .hbm, ⟨37, _⟩ => ⟨S1100000, .i32⟩
  | .hbm, ⟨38, _⟩ => ⟨S1100000x1, .i32⟩
  | .hbm, ⟨39, _⟩ => ⟨S1100000x64, .f32⟩
  | .hbm, ⟨40, _⟩ => ⟨S_, .f32⟩
  | .hbm, ⟨41, _⟩ => ⟨S100000x64, .f32⟩
  | .hbm, ⟨42, _⟩ => ⟨S1100000x1, .i32⟩
  | .hbm, ⟨43, _⟩ => ⟨S100000x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S100000x64, .f32⟩
  | .hbm, ⟨48, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  scatter_S100000_S1100000x1_S1100000_n_0_0_1_wf : ScatterDims.WF S100000 S1100000x1 S1100000 [] [0] [0] 1
  dot_S5000x128_S128x64_S5000x64_1_0_0_1_n_n_wf : DotDims.WF S5000x128 S128x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v30_1) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S64x128 : Shape := ⟨2, ![64, 128]⟩
abbrev S64 : Shape := ⟨1, ![64]⟩
abbrev S64x64 : Shape := ⟨2, ![64, 64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S128x64 : Shape := ⟨2, ![128, 64]⟩
abbrev S100000x64 : Shape := ⟨2, ![100000, 64]⟩
abbrev S1100000x64 : Shape := ⟨2, ![1100000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S128x64, .f32⟩
  | .hbm, ⟨49, _⟩ => ⟨S100000x64, .f32⟩
  | .hbm, ⟨50, _⟩ => ⟨S_, .i32⟩
  | .hbm, ⟨51, _⟩ => ⟨S1100000, .i32⟩
  | .hbm, ⟨52, _⟩ => ⟨S1100000, .i1⟩
  | .hbm, ⟨53, _⟩ => ⟨S_, .i32⟩
  | .hbm, ⟨54, _⟩ => ⟨S1100000, .i32⟩
  | .hbm, ⟨55, _⟩ => ⟨S1100000, .i32⟩
  | .hbm, ⟨56, _⟩ => ⟨S1100000, .i32⟩
  | .hbm, ⟨57, _⟩ => ⟨S1100000x1, .i32⟩
  | .hbm, ⟨58, _⟩ => ⟨S1100000x64, .f32⟩
  | .hbm, ⟨59, _⟩ => ⟨S1100000x1, .f32⟩
  | .hbm, ⟨60, _⟩ => ⟨S1100000x64, .f32⟩
  | .hbm, ⟨61, _⟩ => ⟨S1100000x64, .f32⟩
  | .hbm, ⟨62, _⟩ => ⟨S_, .f32⟩
  | .hbm, ⟨63, _⟩ => ⟨S100000x64, .f32⟩
  | .hbm, ⟨64, _⟩ => ⟨S1100000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S64x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S64x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  transposes_S64x128_S128x64_1_0 : S64x128.Transposes [1, 0] S128x64
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x64_S64x64_1_0 : S64x64.Transposes [1, 0] S64x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.BodyEntry.lean ====
/-
  THE TWO KERNEL BODIES' ARITHMETIC READ AT AN ENTRY, over the extended reals.

  The first body holds a band of 5000 rows of the features `x` ([5000, 128]), the whole weight matrix `W₁` ([64, 128])
  and the band's column of node factors ([5000, 1]); it forms `x · W₁ᵀ` (the weights transposed in place, then a matrix
  product into a zero accumulator) and scales row `p` by the factor of row `p`:
      entry (p, q) = (∑ i, x(p,i) · W₁(q,i)) · d(p,0).
  The second body holds a band of the aggregated messages `s` ([5000, 64]), the band's column of factors, the bias row
  `b₁` ([1, 64]), a head's weights `W` ([64, 64]) and its bias row `b` ([1, 64]):
      hidden (p, k) = max (s(p,k) · d(p,0) + b₁(0,k)) 0,    entry (p, j) = (∑ k, hidden(p,k) · W(j,k)) + b(0,j).
  A change of float format is the identity on the extended reals, a shape cast to the same shape is the identity, a
  column broadcast along its unit axis reads the column's entry of the row, a row broadcast the row's entry of the column.
-/
import proofs.«148859_j34497177322134_2_alg».proof.Proof.Gen.KernelIdeal.Skeleton
import proofs.«148859_j34497177322134_2_alg».proof.Proof.LibDenseLayer
import proofs.«148859_j34497177322134_2_alg».proof.Proof.LibKeepdims
import Idealize.ShloMosaic.Lib.ValueLayout
import Idealize.ShloMosaic.Lib.Pipeline.Value

noncomputable section

namespace Cert.Gcn.Body

open Cert.KernelIdeal Cert.KernelIdeal.Gen Idealize.ShloMosaic Idealize.ShloMosaic.ValueIdx

/-! ## The two matrix products' index facts: the left index takes the output row and the contraction position, the
    right index the contraction position and the output column -/

theorem lin_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lin_l1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem lin_r0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem lin_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem head_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem head_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem head_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem head_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The first body -/

/-- Entry `(p, q)` of the first body's result: row `p` of the features against row `q` of the weights, scaled by
    row `p`'s factor. -/
theorem lin_entry (x0 : Vec Ideal S5000x128 .f32) (x1 : Vec Ideal S64x128 .f32) (x2 : Vec Ideal S5000x1 .f32)
    (p : Fin 5000) (q : Fin 64) :
    k0_pay1 (F := Ideal) x0 x1 x2 (ix2 p q)
      = (∑ i : Fin 128, x0 (ix2 p i) * x1 (ix2 q i)) * x2 (ix2 p (0 : Fin 1)) := by
  unfold k0_pay1
  refine (mulf_apply _ _ _).trans ?_
  refine congrArg₂ (· * ·) ?_ ?_
  · refine (Cert.DenseLayer.matmul_rows_cols dot_S5000x128_S128x64_S5000x64_1_0_0_1_n_n rfl rfl lin_l0 lin_l1 lin_r0 lin_r1 none _ _ p q).trans ?_
    refine Finset.sum_congr rfl fun i _ => ?_
    refine congrArg₂ (· * ·) rfl ?_
    exact transpose_ix2_apply _ transposes_S64x128_p1_0_S128x64 i q
  · refine (Cert.Keepdims.broadcastTo_a1_ab_apply _ broadcasts_S5000x1_S5000x64 p q).trans ?_
    rw [shapeCast_self]

/-! ## The second body -/

/-- Entry `(p, k)` of the hidden activations: the aggregated message scaled by the row's factor, the bias added,
    negative values cut to zero. -/
theorem hidden_entry (x0 : Vec Ideal S5000x64 .f32) (x1 : Vec Ideal S5000x1 .f32) (x2 : Vec Ideal S1x64 .f32)
    (p : Fin 5000) (k : Fin 64) :
    k1_pay1 (F := Ideal) x0 x1 x2 (ix2 p k)
      = max (x0 (ix2 p k) * x1 (ix2 p (0 : Fin 1)) + x2 (ix2 (0 : Fin 1) k)) 0 := by
  unfold k1_pay1
  refine (truncf_apply (ψ := .bf16) _ bitsLt_bf16_f32 _).trans ?_
  refine (maximumf_apply _ _ _).trans ?_
  refine congrArg₂ max ?_ ?_
  · refine (addf_apply _ _ _).trans ?_
    refine congrArg₂ (· + ·) ?_ ?_
    · refine (mulf_apply _ _ _).trans ?_
      refine congrArg₂ (· * ·) ?_ ?_
      · rw [shapeCast_self]
      · refine (Cert.Keepdims.broadcastTo_a1_ab_apply _ broadcasts_S5000x1_S5000x64 p k).trans ?_
        rw [shapeCast_self]
    · refine (broadcastTo_1b_ab_apply _ broadcasts_S1x64_S5000x64 p k).trans ?_
      rw [shapeCast_self]
  · exact Ideal.ofBits_zero_f32

/-- A head read at `(p, j)` from the hidden activations `h`: `(∑ k, h(p,k) · W(j,k)) + b(0,j)`. -/
theorem head_of_hidden (h : FVec Ideal S5000x64 .bf16) (w : Vec Ideal S64x64 .f32) (b : Vec Ideal S1x64 .f32)
    (p : Fin 5000) (j : Fin 64) :
    addf (matmul dot_S5000x64_S64x64_S5000x64_1_0_0_1_n_n none h
        (transpose S64x64 [1, 0] (truncf .bf16 w bitsLt_bf16_f32) transposes_S64x64_p1_0_S64x64)
        (constant (F := Ideal) S5000x64 .f32 0x00000000#32))
      (broadcastTo S5000x64 (shapeCast S1x64 b shapeCasts_S1x64_S1x64) broadcasts_S1x64_S5000x64) (ix2 p j)
      = (∑ k : Fin 64, h (ix2 p k) * w (ix2 j k)) + b (ix2 (0 : Fin 1) j) := by
  refine (addf_apply _ _ _).trans ?_
  refine congrArg₂ (· + ·) ?_ ?_
  · refine (Cert.DenseLayer.matmul_rows_cols dot_S5000x64_S64x64_S5000x64_1_0_0_1_n_n rfl rfl head_l0 head_l1 head_r0 head_r1 none _ _ p j).trans ?_
    refine Finset.sum_congr rfl fun k _ => ?_
    refine congrArg₂ (· * ·) rfl ?_
    exact transpose_ix2_apply _ transposes_S64x64_p1_0_S64x64 k j
  · refine (broadcastTo_1b_ab_apply _ broadcasts_S1x64_S5000x64 p j).trans ?_
    rw [shapeCast_self]

/-- Entry `(p, j)` of the first head's result. -/
theorem mu_entry (x0 : Vec Ideal S5000x64 .f32) (x1 : Vec Ideal S5000x1 .f32) (x2 : Vec Ideal S1x64 .f32)
    (x3 : Vec Ideal S64x64 .f32) (x4 : Vec Ideal S1x64 .f32) (p : Fin 5000) (j : Fin 64) :
    k1_pay2 (F := Ideal) x0 x1 x2 x3 x4 (ix2 p j)
      = (∑ k : Fin 64, max (x0 (ix2 p k) * x1 (ix2 p (0 : Fin 1)) + x2 (ix2 (0 : Fin 1) k)) 0 * x3 (ix2 j k))
        + x4 (ix2 (0 : Fin 1) j) := by
  unfold k1_pay2
  refine (head_of_hidden _ x3 x4 p j).trans ?_
  refine congrArg₂ (· + ·) (Finset.sum_congr rfl fun k _ => ?_) rfl
  rw [hidden_entry]

/-- Entry `(p, j)` of the second head's result. -/
theorem lv_entry (x0 : Vec Ideal S5000x64 .f32) (x1 : Vec Ideal S5000x1 .f32) (x2 : Vec Ideal S1x64 .f32)
    (x5 : Vec Ideal S64x64 .f32) (x6 : Vec Ideal S1x64 .f32) (p : Fin 5000) (j : Fin 64) :
    k1_pay3 (F := Ideal) x0 x1 x2 x5 x6 (ix2 p j)
      = (∑ k : Fin 64, max (x0 (ix2 p k) * x1 (ix2 p (0 : Fin 1)) + x2 (ix2 (0 : Fin 1) k)) 0 * x5 (ix2 j k))
        + x6 (ix2 (0 : Fin 1) j) := by
  unfold k1_pay3
  refine (head_of_hidden _ x5 x6 p j).trans ?_
  refine congrArg₂ (· + ·) (Finset.sum_congr rfl fun k _ => ?_) rfl
  rw [hidden_entry]

end Cert.Gcn.Body

end
-- ==== Proof.Region0.lean ====
/-
  WHAT THE FIRST KERNEL REGION LEAVES IN ITS OUTPUT ARRAY, as one function of the arrays it finds.

  The region walks 20 bands of 5000 rows. At band `t` it is handed rows `5000 t … 5000 t + 4999` of the features
  ([100000, 128]) and of the column of node factors ([100000, 1]), and the whole weight matrix; it writes back rows
  `5000 t … 5000 t + 4999` of the output ([100000, 64]). The body's entry `(p, q)` (module BodyEntry) is
  `(∑ i, x(p,i) · W₁(q,i)) · d(p,0)` of the blocks, so what band `t` writes back is band `t` of
      `scaledLin x W₁ d (r, q) = (∑ i, x(r,i) · W₁(q,i)) · d(r,0)`,
  a block's row `p` being the array's row `5000 t + p` for all three row-banded windows alike. The 20 bands cover every
  row, so the array ends at `scaledLin` of the arrays the region found.
-/
import proofs.«148859_j34497177322134_2_alg».proof.Proof.Gen.KernelIdeal.Frame
import proofs.«148859_j34497177322134_2_alg».proof.Proof.BodyEntry
import Idealize.ShloMosaic.Lib.Pipeline.Value

set_option maxRecDepth 16384

noncomputable section

namespace Cert.Gcn.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The linear layer scaled row by row: entry `(r, q)` is `(∑ i, x(r,i) · W₁(q,i)) · d(r,0)`. -/
def scaledLin (x : S100000x128.Idx → EReal) (w : S64x128.Idx → EReal) (d : S100000x1.Idx → EReal) :
    S100000x64.Idx → EReal :=
  fun i => (∑ k : Fin 128, x (ix2 (i 0) k) * w (ix2 (i 1) k)) * d (ix2 (i 0) (0 : Fin 1))

/-- The block indices over the grid: the three row-banded windows move together along the rows and stay at block 0
    along the columns; the weights' window stays at block 0. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 19 :=
  (by decide +kernel : ∀ t : Fin grid0.N, _)

/-- Every band is some grid point's. -/
theorem index_onto : ∀ q0 : Fin 20, ∃ t : Fin cfg0.N, win0_3.index t = ![q0.val, 0] :=
  (by decide +kernel : ∀ q0 : Fin 20, ∃ t : Fin grid0.N, win0_3.index t = ![q0.val, 0])

/-- One entry of a band, over any three arrays: the blocks' entries the body combines are the arrays' entries that
    `scaledLin` combines at the entry's place in the output array. -/
theorem band_eq (X : S100000x128.Idx → EReal) (Wt : S64x128.Idx → EReal) (D : S100000x1.Idx → EReal)
    (t : Fin cfg0.N) (p : Fin 5000) (q : Fin 64) :
    (∑ i : Fin 128, X (((cfg0.win 0).blk t).view.emb (ix2 p i)) * Wt (((cfg0.win 1).blk t).view.emb (ix2 q i)))
        * D (((cfg0.win 2).blk t).view.emb (ix2 p (0 : Fin 1)))
      = scaledLin X Wt D (((cfg0.win 3).blk t).view.emb (ix2 p q)) := by
  obtain ⟨e0, e1, e2, e3, e4, e5, e6, e7⟩ := index_facts t
  have h0 : ∀ i : Fin 128, ((cfg0.win 0).blk t).view.emb (ix2 p i)
      = ix2 ((((cfg0.win 3).blk t).view.emb (ix2 p q)) 0) i := by
    intro i; funext a; apply Fin.ext
    match a with
    | ⟨0, _⟩ =>
      show win0_0.index t (0 : Fin 2) * 5000 + 1 * p.val = win0_3.index t (0 : Fin 2) * 5000 + 1 * p.val
      omega
    | ⟨1, _⟩ =>
      show win0_0.index t (1 : Fin 2) * 128 + 1 * i.val = i.val
      omega
  have h1 : ∀ i : Fin 128, ((cfg0.win 1).blk t).view.emb (ix2 q i)
      = ix2 ((((cfg0.win 3).blk t).view.emb (ix2 p q)) 1) i := by
    intro i; funext a; apply Fin.ext
    match a with
    | ⟨0, _⟩ =>
      show win0_1.index t (0 : Fin 2) * 64 + 1 * q.val = win0_3.index t (1 : Fin 2) * 64 + 1 * q.val
      omega
    | ⟨1, _⟩ =>
      show win0_1.index t (1 : Fin 2) * 128 + 1 * i.val = i.val
      omega
  have h2 : ((cfg0.win 2).blk t).view.emb (ix2 p (0 : Fin 1))
      = ix2 ((((cfg0.win 3).blk t).view.emb (ix2 p q)) 0) (0 : Fin 1) := by
    funext a; apply Fin.ext
    match a with
    | ⟨0, _⟩ =>
      show win0_2.index t (0 : Fin 2) * 5000 + 1 * p.val = win0_3.index t (0 : Fin 2) * 5000 + 1 * p.val
      omega
    | ⟨1, _⟩ =>
      show win0_2.index t (1 : Fin 2) * 1 + 1 * 0 = 0
      omega
  unfold scaledLin
  rw [h2]
  refine congrArg (· * _) (Finset.sum_congr rfl fun i _ => ?_)
  rw [h0 i, h1 i]
  rfl

/-- WHAT BAND `t` WRITES BACK is band `t` of `scaledLin` of the arrays as the region finds them. -/
theorem flushed_eq (c : Dev nD) (t : Fin cfg0.N) :
    (dat0 V c).flushed 3 t
      = ((cfg0.win 3).blk t).view.read (Elt Ideal) (scaledLin (V c main_arg0) (V c main_arg2) (V c main_v15)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S64x128) zero_offsets,
    View.ld_unit_zero (S := S5000x1) zero_offsets]
  funext y
  obtain ⟨p, q, rfl⟩ : ∃ (p : Fin 5000) (q : Fin 64), y = ix2 p q := ⟨y 0, y 1, eq_ix2 y⟩
  refine (Cert.Gcn.Body.lin_entry (iblk0 V c 0 t) (iblk0 V c 1 t) (iblk0 V c 2 t) p q).trans ?_
  exact band_eq (V c main_arg0) (V c main_arg2) (V c main_v15) t p q

/-- An index of the output array is in band `t` iff each coordinate is in the block's range on its axis. -/
theorem mem_blk (t : Fin cfg0.N) (i : S100000x64.Idx) :
    i ∈ ((cfg0.win 3).blk t).view.set
      ↔ ∀ a : Fin 2, win0_3.index t a * S5000x64.size a ≤ (i a).val
          ∧ (i a).val < win0_3.index t a * S5000x64.size a + S5000x64.size a := by
  show i ∈ ((View.whole main_v16).slice (win0_3.rect t)).set ↔ _
  rw [View.set_slice_whole, Rect.mem_set_unit]
  exact Iff.rfl

/-- The bands cover the output array: row `r` is in band `r / 5000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- THE OUTPUT ARRAY AFTER THE REGION: `scaledLin` of the arrays the region found. -/
theorem final (c : Dev nD) :
    (dat0 V c).arrAt 3 cfg0.N = scaledLin (V c main_arg0) (V c main_arg2) (V c main_v15) :=
  (dat0 V c).arrAt_eq_of_cover 3 _ (fun t _ => flushed_eq V c t) cover

end Cert.Gcn.Region0

end
-- ==== Proof.Region1.lean ====
/-
  WHAT THE SECOND KERNEL REGION LEAVES IN ITS TWO OUTPUT ARRAYS, each as one function of the arrays it finds.

  The region walks 20 bands of 5000 rows. At band `t` it is handed rows `5000 t … 5000 t + 4999` of the aggregated
  messages `s` ([100000, 64]) and of the column of node factors `d` ([100000, 1]), and, whole, the bias row `b₁`
  ([1, 64]), the two heads' weights ([64, 64] each) and bias rows ([1, 64] each); it writes back the same rows of the
  two outputs ([100000, 64] each). By module BodyEntry a head's entry `(p, j)` is
  `(∑ k, max (s(p,k) · d(p,0) + b₁(0,k)) 0 · W(j,k)) + b(0,j)` of the blocks, so what band `t` writes back through a
  head's window is band `t` of
      `headOut s d b₁ W b (r, j) = (∑ k, max (s(r,k) · d(r,0) + b₁(0,k)) 0 · W(j,k)) + b(0,j)`,
  a block's row `p` being the array's row `5000 t + p`. The 20 bands cover every row.
-/
import proofs.«148859_j34497177322134_2_alg».proof.Proof.Gen.KernelIdeal.Frame
import proofs.«148859_j34497177322134_2_alg».proof.Proof.BodyEntry
import Idealize.ShloMosaic.Lib.Pipeline.Value

set_option maxRecDepth 16384

noncomputable section

namespace Cert.Gcn.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- One head over whole arrays: entry `(r, j)` is `(∑ k, max (s(r,k) · d(r,0) + b₁(0,k)) 0 · W(j,k)) + b(0,j)`. -/
def headOut (s : S100000x64.Idx → EReal) (d : S100000x1.Idx → EReal) (b1 : S1x64.Idx → EReal)
    (w : S64x64.Idx → EReal) (b : S1x64.Idx → EReal) : S100000x64.Idx → EReal :=
  fun i => (∑ k : Fin 64, max (s (ix2 (i 0) k) * d (ix2 (i 0) (0 : Fin 1)) + b1 (ix2 (0 : Fin 1) k)) 0
      * w (ix2 (i 1) k)) + b (ix2 (0 : Fin 1) (i 1))

/-- The row-banded windows' block indices over the grid: the two inputs and the two outputs move together along the
    rows and stay at block 0 along the columns. -/
theorem index_facts_rows : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_8.index t (0 : Fin 2) = win1_7.index t (0 : Fin 2) ∧ win1_8.index t (1 : Fin 2) = 0
    ∧ win1_7.index t (1 : Fin 2) = 0 ∧ win1_7.index t (0 : Fin 2) ≤ 19 :=
  (by decide +kernel : ∀ t : Fin grid1.N, _)

/-- The five whole-array windows stay at block 0 on both axes. -/
theorem index_facts_whole : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Every band is some grid point's, for both outputs at once. -/
theorem index_onto : ∀ q0 : Fin 20, ∃ t : Fin cfg1.N, win1_7.index t = ![q0.val, 0] ∧ win1_8.index t = ![q0.val, 0] :=
  (by decide +kernel : ∀ q0 : Fin 20, ∃ t : Fin grid1.N, win1_7.index t = ![q0.val, 0] ∧ win1_8.index t = ![q0.val, 0])

/-- One entry of a band of window 7, over any five arrays: the blocks' entries the body combines are the arrays' entries
    that `headOut` combines at the entry's place in the output array. -/
theorem band7_eq (S : S100000x64.Idx → EReal) (D : S100000x1.Idx → EReal) (B1 : S1x64.Idx → EReal)
    (Wt : S64x64.Idx → EReal) (B : S1x64.Idx → EReal) (t : Fin cfg1.N) (p : Fin 5000) (j : Fin 64) :
    (∑ k : Fin 64, max (S (((cfg1.win 0).blk t).view.emb (ix2 p k))
            * D (((cfg1.win 1).blk t).view.emb (ix2 p (0 : Fin 1)))
            + B1 (((cfg1.win 2).blk t).view.emb (ix2 (0 : Fin 1) k))) 0
          * Wt (((cfg1.win 3).blk t).view.emb (ix2 j k)))
        + B (((cfg1.win 4).blk t).view.emb (ix2 (0 : Fin 1) j))
      = headOut S D B1 Wt B (((cfg1.win 7).blk t).view.emb (ix2 p j)) := by
  obtain ⟨e0, e1, e2, e3, e4, e5, e6, e7⟩ := index_facts_rows t
  obtain ⟨f0, f1, f2, f3, f4, f5, f6, f7, f8, f9⟩ := index_facts_whole t
  have h0 : ∀ k : Fin 64, ((cfg1.win 0).blk t).view.emb (ix2 p k)
      = ix2 ((((cfg1.win 7).blk t).view.emb (ix2 p j)) 0) k := by
    intro k; funext a; apply Fin.ext
    match a with
    | ⟨0, _⟩ =>
      show win1_0.index t (0 : Fin 2) * 5000 + 1 * p.val = win1_7.index t (0 : Fin 2) * 5000 + 1 * p.val
      omega
    | ⟨1, _⟩ =>
      show win1_0.index t (1 : Fin 2) * 64 + 1 * k.val = k.val
      omega
  have h1 : ((cfg1.win 1).blk t).view.emb (ix2 p (0 : Fin 1))
      = ix2 ((((cfg1.win 7).blk t).view.emb (ix2 p j)) 0) (0 : Fin 1) := by
    funext a; apply Fin.ext
    match a with
    | ⟨0, _⟩ =>
      show win1_1.index t (0 : Fin 2) * 5000 + 1 * p.val = win1_7.index t (0 : Fin 2) * 5000 + 1 * p.val
      omega
    | ⟨1, _⟩ =>
      show win1_1.index t (1 : Fin 2) * 1 + 1 * 0 = 0
      omega
  have h2 : ∀ k : Fin 64, ((cfg1.win 2).blk t).view.emb (ix2 (0 : Fin 1) k) = ix2 (0 : Fin 1) k := by
    intro k; funext a; apply Fin.ext
    match a with
    | ⟨0, _⟩ =>
      show win1_2.index t (0 : Fin 2) * 1 + 1 * 0 = 0
      omega
    | ⟨1, _⟩ =>
      show win1_2.index t (1 : Fin 2) * 64 + 1 * k.val = k.val
      omega
  have h3 : ∀ k : Fin 64, ((cfg1.win 3).blk t).view.emb (ix2 j k)
      = ix2 ((((cfg1.win 7).blk t).view.emb (ix2 p j)) 1) k := by
    intro k; funext a; apply Fin.ext
    match a with
    | ⟨0, _⟩ =>
      show win1_3.index t (0 : Fin 2) * 64 + 1 * j.val = win1_7.index t (1 : Fin 2) * 64 + 1 * j.val
      omega
    | ⟨1, _⟩ =>
      show win1_3.index t (1 : Fin 2) * 64 + 1 * k.val = k.val
      omega
  have h4 : ((cfg1.win 4).blk t).view.emb (ix2 (0 : Fin 1) j)
      = ix2 (0 : Fin 1) ((((cfg1.win 7).blk t).view.emb (ix2 p j)) 1) := by
    funext a; apply Fin.ext
    match a with
    | ⟨0, _⟩ =>
      show win1_4.index t (0 : Fin 2) * 1 + 1 * 0 = 0
      omega
    | ⟨1, _⟩ =>
      show win1_4.index t (1 : Fin 2) * 64 + 1 * j.val = win1_7.index t (1 : Fin 2) * 64 + 1 * j.val
      omega
  unfold headOut
  rw [h1, h4]
  refine congrArg (· + _) (Finset.sum_congr rfl fun k _ => ?_)
  rw [h0 k, h2 k, h3 k]
  rfl

/-- WHAT BAND `t` WRITES BACK THROUGH WINDOW 7 is band `t` of `headOut` of the arrays as the region finds them. -/
theorem flushed7_eq (c : Dev nD) (t : Fin cfg1.N) :
    (dat1 V c).flushed 7 t
      = ((cfg1.win 7).blk t).view.read (Elt Ideal)
          (headOut (V c main_v26) (V c main_v15) (V c main_v27) (V c main_arg4) (V c main_v28)) := by
  show (cfg1.win 7).cut (grid1.coords t) ((dat1 V c).after 7 t) = _
  rw [after1_7]
  unfold out1_7
  rw [View.canon_unit_zero zero_offsets]
  simp only [View.ld_unit_zero (S := S5000x64) zero_offsets, View.ld_unit_zero (S := S5000x1) zero_offsets,
    View.ld_unit_zero (S := S1x64) zero_offsets, View.ld_unit_zero (S := S64x64) zero_offsets]
  funext y
  obtain ⟨p, j, rfl⟩ : ∃ (p : Fin 5000) (j : Fin 64), y = ix2 p j := ⟨y 0, y 1, eq_ix2 y⟩
  refine (Cert.Gcn.Body.mu_entry (iblk1 V c 0 t) (iblk1 V c 1 t) (iblk1 V c 2 t) (iblk1 V c 3 t) (iblk1 V c 4 t) p j).trans ?_
  exact band7_eq (V c main_v26) (V c main_v15) (V c main_v27) (V c main_arg4) (V c main_v28) t p j

/-- An index of window 7's array is in band `t` iff each coordinate is in the block's range on its axis. -/
theorem mem_blk7 (t : Fin cfg1.N) (i : S100000x64.Idx) :
    i ∈ ((cfg1.win 7).blk t).view.set
      ↔ ∀ a : Fin 2, win1_7.index t a * S5000x64.size a ≤ (i a).val
          ∧ (i a).val < win1_7.index t a * S5000x64.size a + S5000x64.size a := by
  show i ∈ ((View.whole main_v30_0).slice (win1_7.rect t)).set ↔ _
  rw [View.set_slice_whole, Rect.mem_set_unit]
  exact Iff.rfl

/-- The bands cover window 7's array: row `r` is in band `r / 5000`. -/
theorem cover7 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  obtain ⟨t, ht7, ht8⟩ := index_onto ⟨(i 0).val / 5000, by omega⟩
  have q0 : win1_7.index t (0 : Fin 2) = (i 0).val / 5000 := congrFun ht7 0
  have q1 : win1_7.index t (1 : Fin 2) = 0 := congrFun ht7 1
  refine ⟨t, flush1_7 t, ?_⟩
  rw [mem_blk7]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 64 ≤ (i 1).val ∧ (i 1).val < win1_7.index t (1 : Fin 2) * 64 + 64
    omega

/-- WINDOW 7'S ARRAY AFTER THE REGION: `headOut` of the arrays the region found. -/
theorem final7 (c : Dev nD) :
    (dat1 V c).arrAt 7 cfg1.N
      = headOut (V c main_v26) (V c main_v15) (V c main_v27) (V c main_arg4) (V c main_v28) :=
  (dat1 V c).arrAt_eq_of_cover 7 _ (fun t _ => flushed7_eq V c t) cover7

/-- One entry of a band of window 8, over any five arrays: the blocks' entries the body combines are the arrays' entries
    that `headOut` combines at the entry's place in the output array. -/
theorem band8_eq (S : S100000x64.Idx → EReal) (D : S100000x1.Idx → EReal) (B1 : S1x64.Idx → EReal)
    (Wt : S64x64.Idx → EReal) (B : S1x64.Idx → EReal) (t : Fin cfg1.N) (p : Fin 5000) (j : Fin 64) :
    (∑ k : Fin 64, max (S (((cfg1.win 0).blk t).view.emb (ix2 p k))
            * D (((cfg1.win 1).blk t).view.emb (ix2 p (0 : Fin 1)))
            + B1 (((cfg1.win 2).blk t).view.emb (ix2 (0 : Fin 1) k))) 0
          * Wt (((cfg1.win 5).blk t).view.emb (ix2 j k)))
        + B (((cfg1.win 6).blk t).view.emb (ix2 (0 : Fin 1) j))
      = headOut S D B1 Wt B (((cfg1.win 8).blk t).view.emb (ix2 p j)) := by
  obtain ⟨e0, e1, e2, e3, e4, e5, e6, e7⟩ := index_facts_rows t
  obtain ⟨f0, f1, f2, f3, f4, f5, f6, f7, f8, f9⟩ := index_facts_whole t
  have h0 : ∀ k : Fin 64, ((cfg1.win 0).blk t).view.emb (ix2 p k)
      = ix2 ((((cfg1.win 8).blk t).view.emb (ix2 p j)) 0) k := by
    intro k; funext a; apply Fin.ext
    match a with
    | ⟨0, _⟩ =>
      show win1_0.index t (0 : Fin 2) * 5000 + 1 * p.val = win1_8.index t (0 : Fin 2) * 5000 + 1 * p.val
      omega
    | ⟨1, _⟩ =>
      show win1_0.index t (1 : Fin 2) * 64 + 1 * k.val = k.val
      omega
  have h1 : ((cfg1.win 1).blk t).view.emb (ix2 p (0 : Fin 1))
      = ix2 ((((cfg1.win 8).blk t).view.emb (ix2 p j)) 0) (0 : Fin 1) := by
    funext a; apply Fin.ext
    match a with
    | ⟨0, _⟩ =>
      show win1_1.index t (0 : Fin 2) * 5000 + 1 * p.val = win1_8.index t (0 : Fin 2) * 5000 + 1 * p.val
      omega
    | ⟨1, _⟩ =>
      show win1_1.index t (1 : Fin 2) * 1 + 1 * 0 = 0
      omega
  have h2 : ∀ k : Fin 64, ((cfg1.win 2).blk t).view.emb (ix2 (0 : Fin 1) k) = ix2 (0 : Fin 1) k := by
    intro k; funext a; apply Fin.ext
    match a with
    | ⟨0, _⟩ =>
      show win1_2.index t (0 : Fin 2) * 1 + 1 * 0 = 0
      omega
    | ⟨1, _⟩ =>
      show win1_2.index t (1 : Fin 2) * 64 + 1 * k.val = k.val
      omega
  have h3 : ∀ k : Fin 64, ((cfg1.win 5).blk t).view.emb (ix2 j k)
      = ix2 ((((cfg1.win 8).blk t).view.emb (ix2 p j)) 1) k := by
    intro k; funext a; apply Fin.ext
    match a with
    | ⟨0, _⟩ =>
      show win1_5.index t (0 : Fin 2) * 64 + 1 * j.val = win1_8.index t (1 : Fin 2) * 64 + 1 * j.val
      omega
    | ⟨1, _⟩ =>
      show win1_5.index t (1 : Fin 2) * 64 + 1 * k.val = k.val
      omega
  have h4 : ((cfg1.win 6).blk t).view.emb (ix2 (0 : Fin 1) j)
      = ix2 (0 : Fin 1) ((((cfg1.win 8).blk t).view.emb (ix2 p j)) 1) := by
    funext a; apply Fin.ext
    match a with
    | ⟨0, _⟩ =>
      show win1_6.index t (0 : Fin 2) * 1 + 1 * 0 = 0
      omega
    | ⟨1, _⟩ =>
      show win1_6.index t (1 : Fin 2) * 64 + 1 * j.val = win1_8.index t (1 : Fin 2) * 64 + 1 * j.val
      omega
  unfold headOut
  rw [h1, h4]
  refine congrArg (· + _) (Finset.sum_congr rfl fun k _ => ?_)
  rw [h0 k, h2 k, h3 k]
  rfl

/-- WHAT BAND `t` WRITES BACK THROUGH WINDOW 8 is band `t` of `headOut` of the arrays as the region finds them. -/
theorem flushed8_eq (c : Dev nD) (t : Fin cfg1.N) :
    (dat1 V c).flushed 8 t
      = ((cfg1.win 8).blk t).view.read (Elt Ideal)
          (headOut (V c main_v26) (V c main_v15) (V c main_v27) (V c main_arg6) (V c main_v29)) := by
  show (cfg1.win 8).cut (grid1.coords t) ((dat1 V c).after 8 t) = _
  rw [after1_8]
  unfold out1_8
  rw [View.canon_unit_zero zero_offsets]
  simp only [View.ld_unit_zero (S := S5000x64) zero_offsets, View.ld_unit_zero (S := S5000x1) zero_offsets,
    View.ld_unit_zero (S := S1x64) zero_offsets, View.ld_unit_zero (S := S64x64) zero_offsets]
  funext y
  obtain ⟨p, j, rfl⟩ : ∃ (p : Fin 5000) (j : Fin 64), y = ix2 p j := ⟨y 0, y 1, eq_ix2 y⟩
  refine (Cert.Gcn.Body.lv_entry (iblk1 V c 0 t) (iblk1 V c 1 t) (iblk1 V c 2 t) (iblk1 V c 5 t) (iblk1 V c 6 t) p j).trans ?_
  exact band8_eq (V c main_v26) (V c main_v15) (V c main_v27) (V c main_arg6) (V c main_v29) t p j

/-- An index of window 8's array is in band `t` iff each coordinate is in the block's range on its axis. -/
theorem mem_blk8 (t : Fin cfg1.N) (i : S100000x64.Idx) :
    i ∈ ((cfg1.win 8).blk t).view.set
      ↔ ∀ a : Fin 2, win1_8.index t a * S5000x64.size a ≤ (i a).val
          ∧ (i a).val < win1_8.index t a * S5000x64.size a + S5000x64.size a := by
  show i ∈ ((View.whole main_v30_1).slice (win1_8.rect t)).set ↔ _
  rw [View.set_slice_whole, Rect.mem_set_unit]
  exact Iff.rfl

/-- The bands cover window 8's array: row `r` is in band `r / 5000`. -/
theorem cover8 (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  obtain ⟨t, ht7, ht8⟩ := index_onto ⟨(i 0).val / 5000, by omega⟩
  have q0 : win1_8.index t (0 : Fin 2) = (i 0).val / 5000 := congrFun ht8 0
  have q1 : win1_8.index t (1 : Fin 2) = 0 := congrFun ht8 1
  refine ⟨t, flush1_8 t, ?_⟩
  rw [mem_blk8]
  intro a
  match a with
  | ⟨0, _⟩ =>
    show win1_8.index t (0 : Fin 2) * 5000 ≤ (i 0).val ∧ (i 0).val < win1_8.index t (0 : Fin 2) * 5000 + 5000
    omega
  | ⟨1, _⟩ =>
    show win1_8.index t (1 : Fin 2) * 64 ≤ (i 1).val ∧ (i 1).val < win1_8.index t (1 : Fin 2) * 64 + 64
    omega

/-- WINDOW 8'S ARRAY AFTER THE REGION: `headOut` of the arrays the region found. -/
theorem final8 (c : Dev nD) :
    (dat1 V c).arrAt 8 cfg1.N
      = headOut (V c main_v26) (V c main_v15) (V c main_v27) (V c main_arg6) (V c main_v29) :=
  (dat1 V c).arrAt_eq_of_cover 8 _ (fun t _ => flushed8_eq V c t) cover8

end Cert.Gcn.Region1

end
-- ==== Proof.LibRowGather.lean ====
/-
  THE ROW GATHER READ AT AN INDEX. For a table `T : [N, C]` and an integer array of `E` row numbers, the array
  `T[idx] : [E, C]` is `stablehlo.gather` with offset_dims [1], collapsed_slice_dims [0], start_index_map [0],
  index_vector_dim 1 and slice_sizes [1, C] over the row numbers as `[E, 1]`. Its element `(e, c)` is the table's
  element `(row e, c)`, where `row e` is the `e`-th row number read as a signed integer and clamped into
  `[0, N − 1]` (a gather clamps every start index so that its slice fits). Generic in the sizes `N`, `E`, `C`, the
  width of the index words and the element type.
-/
import Idealize.ShloMosaic.PureOps.Ideal
import Idealize.ShloMosaic.Lib.ValueIdx

noncomputable section

open scoped BigOperators

namespace Cert.RowGather

open Idealize.ShloMosaic Idealize.ShloMosaic.ValueIdx

/-- The dimension numbers of `T[idx]` for `T : [N, C]` and the indices as `[E, 1]`: offset_dims [1],
    collapsed_slice_dims [0], start_index_map [0], index_vector_dim 1, slice_sizes [1, C]. -/
abbrev dims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index read signed and clamped into `[0, N − 1]`. -/
def row {N E w : Nat} (hN : 0 < N) (idx : IVec ⟨2, ![E, 1]⟩ w) (e : Fin E) : Fin N :=
  ⟨min (idx (ix2 e (0 : Fin 1))).toInt.toNat (N - 1), by omega⟩

/-- The row's number is the start index read signed, cut off at `N − 1`. -/
theorem row_val {N E w : Nat} (hN : 0 < N) (idx : IVec ⟨2, ![E, 1]⟩ w) (e : Fin E) :
    (row hN idx e).val = min (idx (ix2 e (0 : Fin 1))).toInt.toNat (N - 1) := rfl

/-- THE ROW GATHER READ AT `(e, c)`: `T[idx][e, c] = T[row e, c]`, the row the `e`-th start index names once read
    signed and clamped into `[0, N − 1]`, at the same column. -/
theorem gather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (dims N E C wf) x idx (ix2 e c) = x (ix2 (row hN idx e) c) := by
  unfold Host.gather
  congr 1
  funext a
  refine Fin.ext ?_
  match a with
  | ⟨0, _⟩ =>
    show (dims N E C wf).start (ix2 e c) idx 0 + (dims N E C wf).batchCoord (ix2 e c) 0
      + (dims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N E C wf).startIndexMap from List.mem_singleton.mpr rfl)]
    have hsi : (dims N E C wf).siIdx (ix2 e c) ⟨List.idxOf (0 : Fin 2) (dims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (dims N E C wf).start (ix2 e c) idx 1 + (dims N E C wf).batchCoord (ix2 e c) 1
      + (dims N E C wf).offCoord (ix2 e c) 1 = c.val
    rw [GatherDims.batchCoord_eq_zero _ _ _ List.not_mem_nil]
    have hstart : (dims N E C wf).start (ix2 e c) idx 1 = 0 := by
      unfold GatherDims.start
      rw [dif_neg (show (1 : Fin 2) ∉ (dims N E C wf).startIndexMap from by
        intro h; exact Nat.one_ne_zero (congrArg Fin.val (List.mem_singleton.mp h)))]
    rw [hstart]
    simp only [Nat.add_zero, Nat.zero_add]
    have hk : (1 : Fin 2) ∈ (dims N E C wf).sKept :=
      (GatherDims.mem_sKept _ _).mpr ⟨fun h => Nat.one_ne_zero (congrArg Fin.val (List.mem_singleton.mp h)), List.not_mem_nil⟩
    unfold GatherDims.offCoord
    rw [dif_pos hk]
    rfl

end Cert.RowGather

end
-- ==== Proof.LibRowScatterAdd.lean ====
/-
  THE ROW SCATTER-ADD READ AT AN INDEX. For an operand `x : [N, C]`, an integer array of `E` row numbers and updates
  `upd : [E, C]`, the arrays `jax.ops.segment_sum(upd, idx)` and `x.at[idx].add(upd)` are `stablehlo.scatter` with
  an `add` body, update_window_dims [1], inserted_window_dims [0], scatter_dims_to_operand_dims [0] and
  index_vector_dim 1 over the row numbers as `[E, 1]`. Update element `(e, c')` lands on operand element `(n, c)`
  exactly when `c' = c` and the `e`-th row number, read as a signed integer and NOT clamped, is `n`; an update whose
  row number is negative or at least `N` is dropped. So, over the extended reals, the result's element `(n, c)` is
  `x (n, c)` plus the sum of `upd (e, c)` over the edges `e` whose row number is `n`. Generic in the sizes `N`,
  `E`, `C` and the width of the index words.
-/
import Idealize.ShloMosaic.PureOps.Ideal
import Idealize.ShloMosaic.Lib.ValueIdx

noncomputable section

open scoped BigOperators

namespace Cert.RowScatterAdd

open Idealize.ShloMosaic Idealize.ShloMosaic.ValueIdx

/-- The dimension numbers of `jax.ops.segment_sum(upd, idx)` / `zeros.at[idx].add(upd)` for an operand `[N, C]`, the
    indices as `[E, 1]` and updates `[E, C]`: update_window_dims [1], inserted_window_dims [0],
    scatter_dims_to_operand_dims [0], index_vector_dim 1. -/
abbrev dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Edge `e` lands on row `n`: its index, read signed and NOT clamped, is `n`. -/
def hits {N E w : Nat} (idx : IVec ⟨2, ![E, 1]⟩ w) (e : Fin E) (n : Fin N) : Prop :=
  (idx (ix2 e (0 : Fin 1))).toInt = (n.val : Int)

instance {N E w : Nat} (idx : IVec ⟨2, ![E, 1]⟩ w) (e : Fin E) (n : Fin N) : Decidable (hits idx e n) := by
  unfold hits; infer_instance

section Coordinates
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update `(e, c')` starts at the `e`-th row number, read signed. -/
theorem start_row : (dims N E C wf).start (ix2 e c') idx 0 = (idx (ix2 e (0 : Fin 1))).toInt := by
  unfold ScatterDims.start
  rw [dif_pos (show (0 : Fin 2) ∈ (dims N E C wf).scatterDimsToOperandDims from List.mem_singleton.mpr rfl)]
  have hsi : (dims N E C wf).siIdx (ix2 e c') ⟨List.idxOf (0 : Fin 2) (dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter indices do not name that axis. -/
theorem start_col : (dims N E C wf).start (ix2 e c') idx 1 = 0 := by
  unfold ScatterDims.start
  rw [dif_neg (show (1 : Fin 2) ∉ (dims N E C wf).scatterDimsToOperandDims from fun h =>
    Nat.one_ne_zero (congrArg Fin.val (List.mem_singleton.mp h)))]

/-- The operand's axes that take a window coordinate are the column axis alone. -/
theorem mem_sKept (a : Fin 2) : a ∈ (dims N E C wf).sKept ↔ a ≠ 0 := by
  simp [ScatterDims.sKept, Shape.kept, List.mem_filter, List.mem_finRange]

/-- On the row axis, an inserted one, the window coordinate is `0`. -/
theorem window_row : (dims N E C wf).window (ix2 e c') 0 = 0 := by
  unfold ScatterDims.window
  rw [dif_neg (fun h => ((mem_sKept wf 0).mp h) rfl)]

/-- On the column axis the window coordinate of update `(e, c')` is its column `c'`. -/
theorem window_col : (dims N E C wf).window (ix2 e c') 1 = c'.val := by
  unfold ScatterDims.window
  rw [dif_pos ((mem_sKept wf 1).mpr (fun h => Nat.one_ne_zero (congrArg Fin.val h)))]
  rfl

end Coordinates

/-- WHERE AN UPDATE LANDS: update element `(e, c')` lands on operand element `(n, c)` exactly when the columns agree
    and the `e`-th row number, read signed and not clamped, is `n`. -/
theorem resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (dims N E C wf).resultIdx? (ix2 e c') idx = some (ix2 n c) ↔ c' = c ∧ hits idx e n := by
  have hs0 := start_row wf idx e c'
  have hs1 := start_col wf idx e c'
  have hw0 := window_row wf e c'
  have hw1 := window_col wf e c'
  have hn : n.val < N := n.isLt
  have hc' : c'.val < C := c'.isLt
  unfold hits
  unfold ScatterDims.resultIdx?
  split
  · rename_i h
    rw [Option.some.injEq]
    constructor
    · intro hf
      have h0 := congrArg Fin.val (congrFun hf 0)
      have h1 := congrArg Fin.val (congrFun hf 1)
      have hb0 := (h 0).1
      simp only [hs0, hw0] at h0 hb0
      simp only [hs1, hw1] at h1
      refine ⟨Fin.ext ?_, ?_⟩
      · change (((0 : Int) + (c'.val : Int)).toNat) = c.val at h1
        omega
      · change (((idx (ix2 e (0 : Fin 1))).toInt + ((0 : Nat) : Int)).toNat) = n.val at h0
        omega
    · rintro ⟨rfl, hhit⟩
      funext a
      refine Fin.ext ?_
      match a with
      | ⟨0, _⟩ =>
        show ((dims N E C wf).start (ix2 e c') idx 0 + ((dims N E C wf).window (ix2 e c') 0 : Nat)).toNat = n.val
        rw [hs0, hw0, hhit]; omega
      | ⟨1, _⟩ =>
        show ((dims N E C wf).start (ix2 e c') idx 1 + ((dims N E C wf).window (ix2 e c') 1 : Nat)).toNat = c'.val
        rw [hs1, hw1]; omega
  · rename_i h
    constructor
    · intro hf; exact absurd hf (by simp)
    · rintro ⟨rfl, hhit⟩
      exfalso; apply h
      intro a
      match a with
      | ⟨0, _⟩ =>
        show 0 ≤ (dims N E C wf).start (ix2 e c') idx 0 + ((dims N E C wf).window (ix2 e c') 0 : Nat) ∧
          (dims N E C wf).start (ix2 e c') idx 0 + ((dims N E C wf).window (ix2 e c') 0 : Nat) < (N : Int)
        rw [hs0, hw0, hhit]; omega
      | ⟨1, _⟩ =>
        show 0 ≤ (dims N E C wf).start (ix2 e c') idx 1 + ((dims N E C wf).window (ix2 e c') 1 : Nat) ∧
          (dims N E C wf).start (ix2 e c') idx 1 + ((dims N E C wf).window (ix2 e c') 1 : Nat) < (C : Int)
        rw [hs1, hw1]; omega

/-- THE ROW SCATTER-ADD READ AT `(n, c)`: the operand's element plus the sum, over the edges `e` whose row number
    (read signed, not clamped) is `n`, of the update's element `(e, c)`. -/
theorem scatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (dims N E C wf) x idx upd (ix2 n c)
      = x (ix2 n c) + ∑ e : Fin E, if hits idx e n then upd (ix2 e c) else 0 := by
  unfold Ideal.hostScatterAdd
  congr 1
  rw [Finset.sum_filter, sum_idx2]
  refine Finset.sum_congr rfl fun e _ => ?_
  have hcongr : ∀ c' : Fin C,
      (if (dims N E C wf).resultIdx? (ix2 e c') idx = some (ix2 n c) then upd (ix2 e c') else 0)
        = if c' = c then (if hits idx e n then upd (ix2 e c') else 0) else 0 := by
    intro c'
    by_cases h1 : c' = c
    · by_cases h2 : hits idx e n
      · rw [if_pos ((resultIdx?_eq_some_iff wf idx e c' n c).mpr ⟨h1, h2⟩), if_pos h1, if_pos h2]
      · rw [if_neg (fun h => h2 ((resultIdx?_eq_some_iff wf idx e c' n c).mp h).2), if_pos h1, if_neg h2]
    · rw [if_neg (fun h => h1 ((resultIdx?_eq_some_iff wf idx e c' n c).mp h).1), if_neg h1]
  rw [Finset.sum_congr rfl (fun c' _ => hcongr c')]
  rw [Finset.sum_ite_eq' Finset.univ c]
  simp only [Finset.mem_univ, if_true]

/-- The same read of the host's accumulating scatter as a program states it (`Host.scatterAdd`) at the ideal instance,
    where it is that exact sum whatever the float format. -/
theorem host_scatterAdd_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w)
    (upd : FVec Ideal ⟨2, ![E, C]⟩ φ) (n : Fin N) (c : Fin C) :
    Host.scatterAdd (F := Ideal) (dims N E C wf) x idx upd (ix2 n c)
      = x (ix2 n c) + ∑ e : Fin E, if hits idx e n then upd (ix2 e c) else 0 :=
  scatterAdd_apply wf x idx upd n c

end Cert.RowScatterAdd

end
-- ==== Proof.LibMaskedSumLinear.lean ====
/-
  A MASKED, WEIGHTED SUM OF ROWS COMMUTES WITH A LINEAR MAP. For finitely many rows `X e` (each a finite family of
  numbers), weights `v e`, a set of rows picked by `hit` and a column of coefficients `W`,

      ∑ f, (∑ e ∈ hit, v e · X e f) · W f = ∑ e ∈ hit, v e · (∑ f, X e f · W f).

  It is stated over the extended reals, with a leading `0 +` on each masked sum (the value a sum accumulated onto zero
  has), and needs every entry to be a real number: on the extended reals multiplication does not distribute over
  addition in general (`(⊤ + ⊥) · 1` against `⊤ · 1 + ⊥ · 1`). With real entries both sides are the images of the same
  real number, by distributivity, associativity and an exchange of the two finite sums.
-/
import Idealize.ShloMosaic.PureOps.Ideal

noncomputable section

open scoped BigOperators

namespace Cert.MaskedSum

/-- The image in the extended reals of a finite sum of real numbers is the sum of the images. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A choice between the image of a real number and zero is the image of the choice between that number and zero. -/
theorem ite_coe (p : Prop) [Decidable p] (a : ℝ) :
    (if p then (a : EReal) else 0) = ((if p then a else 0 : ℝ) : EReal) := by
  by_cases h : p
  · rw [if_pos h, if_pos h]
  · rw [if_neg h, if_neg h, EReal.coe_zero]

/-- The law over the real numbers: `∑ f, (∑ e ∈ hit, v e · X e f) · W f = ∑ e ∈ hit, v e · (∑ f, X e f · W f)`. -/
theorem real_sum_mul_eq_masked_sum {E K : Type} [Fintype E] [Fintype K] (hit : E → Prop) [DecidablePred hit]
    (v : E → ℝ) (X : E → K → ℝ) (W : K → ℝ) :
    ∑ f, (∑ e, if hit e then v e * X e f else 0) * W f = ∑ e, if hit e then v e * ∑ f, X e f * W f else 0 := by
  simp only [Finset.sum_mul, ite_mul, zero_mul]
  rw [Finset.sum_comm]
  refine Finset.sum_congr rfl fun e _ => ?_
  by_cases h : hit e
  · simp only [if_pos h]
    rw [Finset.mul_sum]
    exact Finset.sum_congr rfl fun f _ => mul_assoc _ _ _
  · simp only [if_neg h]
    exact Finset.sum_const_zero

/-- A MASKED, WEIGHTED SUM OF ROWS COMMUTES WITH A LINEAR MAP, over the extended reals, when every weight, row entry
    and coefficient is a real number: `∑ f, (0 + ∑ e ∈ hit, v e · X e f) · W f = 0 + ∑ e ∈ hit, v e · (∑ f, X e f · W f)`. -/
theorem sum_mul_eq_masked_sum {E K : Type} [Fintype E] [Fintype K] (hit : E → Prop) [DecidablePred hit]
    (v : E → EReal) (X : E → K → EReal) (W : K → EReal)
    (hv : ∀ e, ∃ r : ℝ, v e = (r : EReal)) (hX : ∀ e f, ∃ r : ℝ, X e f = (r : EReal)) (hW : ∀ f, ∃ r : ℝ, W f = (r : EReal)) :
    ∑ f, (0 + ∑ e, if hit e then v e * X e f else 0) * W f = 0 + ∑ e, if hit e then v e * ∑ f, X e f * W f else 0 := by
  choose v' hv using hv
  choose X' hX using hX
  choose W' hW using hW
  -- each side is the image of the corresponding real expression
  have hL : ∑ f, (0 + ∑ e, if hit e then v e * X e f else 0) * W f
      = ((∑ f, (∑ e, if hit e then v' e * X' e f else 0) * W' f : ℝ) : EReal) := by
    rw [coe_sum]
    refine Finset.sum_congr rfl fun f _ => ?_
    rw [zero_add, EReal.coe_mul, coe_sum, hW f]
    congr 1
    refine Finset.sum_congr rfl fun e _ => ?_
    rw [hv e, hX e f, ← EReal.coe_mul, ite_coe]
  have hR : 0 + ∑ e, (if hit e then v e * ∑ f, X e f * W f else 0)
      = ((∑ e, (if hit e then v' e * ∑ f, X' e f * W' f else 0) : ℝ) : EReal) := by
    rw [zero_add, coe_sum]
    refine Finset.sum_congr rfl fun e _ => ?_
    have hs : ∑ f, X e f * W f = ((∑ f, X' e f * W' f : ℝ) : EReal) := by
      rw [coe_sum]
      refine Finset.sum_congr rfl fun f _ => ?_
      rw [hX e f, hW f, EReal.coe_mul]
    rw [hs, hv e, ← EReal.coe_mul, ite_coe]
  rw [hL, hR, real_sum_mul_eq_masked_sum]

end Cert.MaskedSum

end
-- ==== Proof.Spec.lean ====
/-
  THE MATHEMATICS OF ONE GRAPH-CONVOLUTION LAYER WITH TWO LINEAR HEADS, over the extended reals.

  Nodes `N`, edges `E` (self loops included), input features `D`, hidden features `H`. An edge `e` reads the
  node `srow e` and lands on the node `n` when `hit e n`; `drow e` is the node its own normalisation factor is read
  at. With `h = x · W₁ᵀ` and a per-node factor `dinv`:

  * scaling at the source, summing, then scaling at the destination:
      `aggSrc n k = (0 + ∑ e ∈ hit n, h (srow e) k · dinv (srow e)) · dinv n`;
  * scaling every edge by both factors, then summing:
      `aggEdge n k = 0 + ∑ e ∈ hit n, h (srow e) k · (dinv (srow e) · dinv (drow e))`.

  They agree when every entry of `h` and `dinv` is a real number and an edge that lands on `n` reads its
  destination factor at `n`: the factor `dinv n` is then common to every term of the sum, and over the reals a
  common factor moves across a finite sum (on the extended reals it does not in general: `(⊤ + ⊥) · 0`).
  A head is `relu (agg + b₁) · Wᵀ + b`.
-/
import Idealize.ShloMosaic.PureOps.Ideal
import proofs.«148859_j34497177322134_2_alg».proof.Proof.LibMaskedSumLinear

noncomputable section

open scoped BigOperators

namespace Cert.GcnSpec

open Cert.MaskedSum

/-- The linear layer `x · Wᵀ`: entry `(r, k)` is `∑ i, x r i · W k i`. -/
def lin {N D H : Type} [Fintype D] (x : N → D → EReal) (W : H → D → EReal) (r : N) (k : H) : EReal :=
  ∑ i, x r i * W k i

/-- A product-sum of real numbers is a real number. -/
theorem lin_real {N D H : Type} [Fintype D] (x : N → D → EReal) (W : H → D → EReal)
    (hx : ∀ r i, ∃ a : ℝ, x r i = (a : EReal)) (hW : ∀ k i, ∃ a : ℝ, W k i = (a : EReal)) (r : N) (k : H) :
    ∃ a : ℝ, lin x W r k = (a : EReal) := by
  choose x' hx using hx
  choose W' hW using hW
  refine ⟨∑ i, x' r i * W' k i, ?_⟩
  unfold lin
  rw [coe_sum]
  refine Finset.sum_congr rfl fun i _ => ?_
  rw [hx, hW, EReal.coe_mul]

/-- Messages scaled at the source, summed over the edges landing on `n`, the sum scaled at the destination. -/
def aggSrc {N E H : Type} [Fintype E] (hit : E → N → Prop) [∀ e n, Decidable (hit e n)] (srow : E → N)
    (dinv : N → EReal) (h : N → H → EReal) (n : N) (k : H) : EReal :=
  (0 + ∑ e, if hit e n then h (srow e) k * dinv (srow e) else 0) * dinv n

/-- Messages scaled by both factors edge by edge, then summed over the edges landing on `n`. -/
def aggEdge {N E H : Type} [Fintype E] (hit : E → N → Prop) [∀ e n, Decidable (hit e n)] (srow drow : E → N)
    (dinv : N → EReal) (h : N → H → EReal) (n : N) (k : H) : EReal :=
  0 + ∑ e, if hit e n then h (srow e) k * (dinv (srow e) * dinv (drow e)) else 0

/-- THE LAW: with real entries, and every edge landing on `n` reading its destination factor at `n`, the
    destination factor is common to the whole sum and moves across it. -/
theorem aggSrc_eq_aggEdge {N E H : Type} [Fintype E] (hit : E → N → Prop) [∀ e n, Decidable (hit e n)]
    (srow drow : E → N) (dinv : N → EReal) (h : N → H → EReal)
    (hh : ∀ r k, ∃ a : ℝ, h r k = (a : EReal)) (hd : ∀ r, ∃ a : ℝ, dinv r = (a : EReal))
    (hdrow : ∀ e n, hit e n → drow e = n) (n : N) (k : H) :
    aggSrc hit srow dinv h n k = aggEdge hit srow drow dinv h n k := by
  choose h' hh using hh
  choose d' hd using hd
  unfold aggSrc aggEdge
  have hL : (0 + ∑ e, if hit e n then h (srow e) k * dinv (srow e) else 0) * dinv n
      = (((∑ e, if hit e n then h' (srow e) k * d' (srow e) else 0) * d' n : ℝ) : EReal) := by
    rw [zero_add, EReal.coe_mul, coe_sum, hd n]
    congr 1
    refine Finset.sum_congr rfl fun e _ => ?_
    rw [hh, hd, ← EReal.coe_mul, ite_coe]
  have hR : (0 + ∑ e, if hit e n then h (srow e) k * (dinv (srow e) * dinv (drow e)) else 0)
      = (((∑ e, if hit e n then h' (srow e) k * (d' (srow e) * d' (drow e)) else 0) : ℝ) : EReal) := by
    rw [zero_add, coe_sum]
    refine Finset.sum_congr rfl fun e _ => ?_
    rw [hh, hd, hd, ← EReal.coe_mul, ← EReal.coe_mul, ite_coe]
  rw [hL, hR]
  congr 1
  rw [Finset.sum_mul]
  refine Finset.sum_congr rfl fun e _ => ?_
  by_cases he : hit e n
  · rw [if_pos he, if_pos he, hdrow e n he, mul_assoc]
  · rw [if_neg he, if_neg he, zero_mul]

/-- One head: `relu (agg + b₁) · Wᵀ + b` at node `n`, output feature `j`. -/
def head {N H J : Type} [Fintype H] (agg : N → H → EReal) (b1 : H → EReal) (W : J → H → EReal) (b : J → EReal)
    (n : N) (j : J) : EReal :=
  (∑ k, max (agg n k + b1 k) 0 * W j k) + b j

end Cert.GcnSpec

end
-- ==== Proof.Shared.lean ====
/-
  THE GRAPH'S DATA READ OFF THE EDGE LIST. From the integer array of edges (two rows: sources, destinations; the
  self loops appended) the reference program computes, before any float arithmetic on the features: the destination
  row numbers as a column (the scatter's indices), the source and destination row numbers wrapped for a gather
  (a negative one has the node count added) as columns, and the per-node factor `deg^(-1/2)` (zero where the
  degree is not positive). This module names, over those stages:

  * `hitOf ei e n`  — edge `e` lands on node `n`: its destination row number, read signed and not clamped, is `n`;
  * `srowOf ei e`   — the node edge `e` gathers from: its wrapped source row number, read signed and clamped;
  * `drowOf ei e`   — the node edge `e` reads its destination factor at: its wrapped destination row number, clamped;
  * `dinvOf ei r`   — node `r`'s factor.
-/
import proofs.«148859_j34497177322134_2_alg».proof.Proof.RefRead
import proofs.«148859_j34497177322134_2_alg».proof.Proof.LibRowGather
import proofs.«148859_j34497177322134_2_alg».proof.Proof.LibRowScatterAdd
import proofs.«148859_j34497177322134_2_alg».proof.Proof.Spec

noncomputable section

namespace Cert.Gcn

open Idealize.ShloMosaic Idealize.ShloMosaic.ValueIdx
open Cert.ReferenceIdeal Cert.ReferenceIdeal.ReadP

/-- The edge list's contents: two rows of a million 32-bit row numbers. -/
abbrev EdgeList := (⟨S2x1000000, .i32⟩ : BufTy).Contents (Elt Ideal)

/-- Edge `e` lands on node `n`. -/
def hitOf (ei : EdgeList) (e : Fin 1100000) (n : Fin 100000) : Prop :=
  Cert.RowScatterAdd.hits (val_main_v43 (F := Ideal) ei) e n

instance (ei : EdgeList) (e : Fin 1100000) (n : Fin 100000) : Decidable (hitOf ei e n) := by
  unfold hitOf; infer_instance

/-- The node edge `e` gathers its message from. -/
def srowOf (ei : EdgeList) (e : Fin 1100000) : Fin 100000 :=
  Cert.RowGather.row (N := 100000) (by decide) (val_main_v37 (F := Ideal) ei) e

/-- The node edge `e` reads its destination factor at. -/
def drowOf (ei : EdgeList) (e : Fin 1100000) : Fin 100000 :=
  Cert.RowGather.row (N := 100000) (by decide) (val_main_v27 (F := Ideal) ei) e

/-- Node `r`'s factor `deg^(-1/2)`, zero where the degree is not positive. -/
def dinvOf (ei : EdgeList) (r : Fin 100000) : EReal :=
  val_main_v14 (F := Ideal) ei (ix1 r)

end Cert.Gcn

end
-- ==== Proof.Stages.lean ====
/-
  THE BUFFERS BETWEEN THE PROGRAM'S SEGMENTS, each as a function of the arguments.

  The idealized kernel program is six segments: three stretches of host operations (the graph's data: source and
  destination row numbers with the self loops appended, the degrees, the per-node factor `deg^(-1/2)`, that factor as
  a column), the first kernel region (the scaled linear layer `g = (x · W₁ᵀ) · d`), a fourth stretch (the source rows
  wrapped for the gather, the rows of `g` gathered along the edges, the gathered rows summed onto zero at the
  destination rows, the three bias vectors laid out as rows) and the second kernel region (the two heads). This
  module reads what each later segment needs out of the contents the earlier ones leave:

  * the host stages that only involve the edge list are, operation for operation, the stages the reference program
    computes from the same edge list, so they are stated as those stages (`val_main_v3`: sources, `val_main_v6`:
    destinations, `val_main_v14`: the factor, `val_main_v37` / `val_main_v43`: the gather's and the scatter's index
    columns);
  * a region's output array is the whole-array function of modules Region0 / Region1 of the arrays it found;
  * an argument array is never written.
-/
import proofs.«148859_j34497177322134_2_alg».proof.Proof.Gen.KernelIdeal.Frame
import proofs.«148859_j34497177322134_2_alg».proof.Proof.Region0
import proofs.«148859_j34497177322134_2_alg».proof.Proof.Region1
import proofs.«148859_j34497177322134_2_alg».proof.Proof.Shared
import Idealize.ShloMosaic.Lib.StableHlo.Run

set_option maxRecDepth 16384

noncomputable section

namespace Cert.Gcn.Stages

open Cert.KernelIdeal Cert.KernelIdeal.Gen
open Idealize.ShloMosaic Idealize.ShloMosaic.TcCoe Idealize.ShloMosaic.ValueIdx Idealize.SL.Sem
open Idealize.ShloMosaic.StableHlo
open Cert.ReferenceIdeal.ReadP (val_main_v3 val_main_v6 val_main_v14 val_main_v37 val_main_v43)

variable (m : (ℓ : Loc nD τ sig) → Buf (Elt Ideal) ℓ) (ρ : Dev nD → PrngReg)

/-! ## At the first region's entry -/

/-- A value read back through a typed reference it was written through is the value. -/
theorem ofBuf_toBuf {T : BufTy} (x : StableHlo.TRef sig T) (v : T.Contents (Elt Ideal)) : x.ofBuf (x.toBuf v) = v := by
  rcases x with ⟨r, rfl, a, b⟩
  rfl

/-- Reading or writing through a typed reference whose type equation holds by computation changes nothing. -/
theorem ofBuf_v12 (p a b) (v : main_v12.ty.Contents (Elt Ideal)) :
    (StableHlo.TRef.of (T := ⟨S100000, .i1⟩) main_v12 p a b).ofBuf v = v := rfl
theorem ofBuf_v13 (p a b) (v : main_v13.ty.Contents (Elt Ideal)) :
    (StableHlo.TRef.of (T := ⟨S100000, .f32⟩) main_v13 p a b).ofBuf v = v := rfl
theorem ofBuf_cst2 (p a b) (v : main_cst_2.ty.Contents (Elt Ideal)) :
    (StableHlo.TRef.of (T := ⟨S_, .f32⟩) main_cst_2 p a b).ofBuf v = v := rfl
theorem toBuf_v14 (p a b) (v : (⟨S100000, .f32⟩ : BufTy).Contents (Elt Ideal)) :
    (StableHlo.TRef.of (T := ⟨S100000, .f32⟩) main_v14 p a b).toBuf v = v := rfl

open Cert.ReferenceIdeal.ReadP (val_main_v12 val_main_v13 val_main_cst_2) in
/-- The comparison "degree positive", the degrees' inverse square roots and the zero they are selected against. -/
theorem W1_select_operands (c : Dev nD) :
    W1 m ρ c (Proc.devRef .tc main_v12) = val_main_v12 (F := Ideal) (m ((c : Thread nD τ).loc main_arg1))
    ∧ W1 m ρ c (Proc.devRef .tc main_v13) = val_main_v13 (F := Ideal) (m ((c : Thread nD τ).loc main_arg1))
    ∧ W1 m ρ c (Proc.devRef .tc main_cst_2) = val_main_cst_2 (F := Ideal) := by
  refine ⟨?_, ?_, ?_⟩
  · show StableHlo.after hostOps0 (W0 m ρ c) (Proc.devRef .tc main_v12) = _
    simp only [hostOps0]
    after_results
    all_goals rfl
  · show StableHlo.after hostOps0 (W0 m ρ c) (Proc.devRef .tc main_v13) = _
    simp only [hostOps0]
    after_results
    all_goals rfl
  · show StableHlo.after hostOps0 (W0 m ρ c) (Proc.devRef .tc main_cst_2) = _
    simp only [hostOps0]
    after_results
    all_goals rfl

/-- The per-node factor after the selection. -/
theorem W2_factor (c : Dev nD) : W2 m ρ c (Proc.devRef .tc main_v14) = val_main_v14 (F := Ideal) (m ((c : Thread nD τ).loc main_arg1)) := by
  show StableHlo.after hostOps0_1 (W1 m ρ c) (Proc.devRef .tc main_v14) = _
  obtain ⟨h12, h13, hc2⟩ := W1_select_operands m ρ c
  generalize W1 m ρ c = V1 at h12 h13 hc2 ⊢
  simp only [hostOps0_1]
  after_results
  rw [ofBuf_toBuf, ofBuf_toBuf, ofBuf_v12, ofBuf_v13, ofBuf_cst2, toBuf_v14, h12, h13, hc2]
  all_goals rfl

/-- The column of node factors the first region is handed. -/
theorem W3_factor (c : Dev nD) :
    W3 m ρ c (Proc.devRef .tc main_v15)
      = broadcastInDim S100000x1 ![0] bcast_S100000_S100000x1_0 (val_main_v14 (F := Ideal) (m ((c : Thread nD τ).loc main_arg1))) := by
  show StableHlo.after hostOps0_2 (W2 m ρ c) (Proc.devRef .tc main_v15) = _
  have h14 := W2_factor m ρ c
  generalize W2 m ρ c = V2 at h14 ⊢
  simp only [hostOps0_2]
  after_results
  rw [h14]

/-- The edges' source row numbers. -/
theorem W3_src (c : Dev nD) : W3 m ρ c (Proc.devRef .tc main_v5) = val_main_v3 (F := Ideal) (m ((c : Thread nD τ).loc main_arg1)) := by
  show StableHlo.after hostOps0_2 (StableHlo.after hostOps0_1 (StableHlo.after hostOps0 (W0 m ρ c)))
    (Proc.devRef .tc main_v5) = _
  simp only [hostOps0, hostOps0_1, hostOps0_2]
  after_results
  all_goals rfl

/-- The edges' destination row numbers. -/
theorem W3_dst (c : Dev nD) : W3 m ρ c (Proc.devRef .tc main_v6) = val_main_v6 (F := Ideal) (m ((c : Thread nD τ).loc main_arg1)) := by
  show StableHlo.after hostOps0_2 (StableHlo.after hostOps0_1 (StableHlo.after hostOps0 (W0 m ρ c)))
    (Proc.devRef .tc main_v6) = _
  simp only [hostOps0, hostOps0_1, hostOps0_2]
  after_results
  all_goals rfl

/-! ## The arguments, before and after the first region -/

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c)))
    (Proc.devRef .tc main_arg0) = _
  simp only [hostOps0, hostOps0_1, hostOps0_2]
  after_results
  all_goals rfl

theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c)))
    (Proc.devRef .tc main_arg2) = _
  simp only [hostOps0, hostOps0_1, hostOps0_2]
  after_results
  all_goals rfl

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c)))
    (Proc.devRef .tc main_arg3) = _
  simp only [hostOps0, hostOps0_1, hostOps0_2]
  after_results
  all_goals rfl
theorem W4_arg3 (c : Dev nD) : W4 m ρ c (Proc.devRef .tc main_arg3) = m ((c : Thread nD τ).loc main_arg3) :=
  (W4_of_ne m ρ c main_arg3 (by decide)).trans (W3_arg3 m ρ c)

theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c)))
    (Proc.devRef .tc main_arg4) = _
  simp only [hostOps0, hostOps0_1, hostOps0_2]
  after_results
  all_goals rfl
theorem W4_arg4 (c : Dev nD) : W4 m ρ c (Proc.devRef .tc main_arg4) = m ((c : Thread nD τ).loc main_arg4) :=
  (W4_of_ne m ρ c main_arg4 (by decide)).trans (W3_arg4 m ρ c)

theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c)))
    (Proc.devRef .tc main_arg5) = _
  simp only [hostOps0, hostOps0_1, hostOps0_2]
  after_results
  all_goals rfl
theorem W4_arg5 (c : Dev nD) : W4 m ρ c (Proc.devRef .tc main_arg5) = m ((c : Thread nD τ).loc main_arg5) :=
  (W4_of_ne m ρ c main_arg5 (by decide)).trans (W3_arg5 m ρ c)

theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c)))
    (Proc.devRef .tc main_arg6) = _
  simp only [hostOps0, hostOps0_1, hostOps0_2]
  after_results
  all_goals rfl
theorem W4_arg6 (c : Dev nD) : W4 m ρ c (Proc.devRef .tc main_arg6) = m ((c : Thread nD τ).loc main_arg6) :=
  (W4_of_ne m ρ c main_arg6 (by decide)).trans (W3_arg6 m ρ c)

theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c)))
    (Proc.devRef .tc main_arg7) = _
  simp only [hostOps0, hostOps0_1, hostOps0_2]
  after_results
  all_goals rfl
theorem W4_arg7 (c : Dev nD) : W4 m ρ c (Proc.devRef .tc main_arg7) = m ((c : Thread nD τ).loc main_arg7) :=
  (W4_of_ne m ρ c main_arg7 (by decide)).trans (W3_arg7 m ρ c)

/-! ## At the first region's exit -/

/-- The first region's output: the scaled linear layer of the features, the weights and the column of factors. -/
theorem W4_scaledLin (c : Dev nD) :
    W4 m ρ c (Proc.devRef .tc main_v16)
      = Cert.Gcn.Region0.scaledLin (m ((c : Thread nD τ).loc main_arg0)) (m ((c : Thread nD τ).loc main_arg2))
          (broadcastInDim S100000x1 ![0] bcast_S100000_S100000x1_0 (val_main_v14 (F := Ideal) (m ((c : Thread nD τ).loc main_arg1)))) := by
  refine (W4_arr m ρ c 3).trans ((Cert.Gcn.Region0.final (V3 m ρ) c).trans ?_)
  show Cert.Gcn.Region0.scaledLin (W3 m ρ c (Proc.devRef .tc main_arg0)) (W3 m ρ c (Proc.devRef .tc main_arg2))
    (W3 m ρ c (Proc.devRef .tc main_v15)) = _
  rw [W3_arg0, W3_arg2, W3_factor]

/-- The column of factors is an input of the first region: it leaves it as it found it. -/
theorem W4_factor (c : Dev nD) :
    W4 m ρ c (Proc.devRef .tc main_v15)
      = broadcastInDim S100000x1 ![0] bcast_S100000_S100000x1_0 (val_main_v14 (F := Ideal) (m ((c : Thread nD τ).loc main_arg1))) :=
  ((W4_arr m ρ c 2).trans (((dat0 (V3 m ρ) c).arrAt_in 2 rfl _).trans (A_eq0 (V3 m ρ) c 2))).trans (W3_factor m ρ c)

theorem W4_src (c : Dev nD) : W4 m ρ c (Proc.devRef .tc main_v5) = val_main_v3 (F := Ideal) (m ((c : Thread nD τ).loc main_arg1)) :=
  (W4_of_ne m ρ c main_v5 (by decide)).trans (W3_src m ρ c)

theorem W4_dst (c : Dev nD) : W4 m ρ c (Proc.devRef .tc main_v6) = val_main_v6 (F := Ideal) (m ((c : Thread nD τ).loc main_arg1)) :=
  (W4_of_ne m ρ c main_v6 (by decide)).trans (W3_dst m ρ c)

/-! ## At the second region's entry -/

/-- The aggregated messages: the rows of the first region's output gathered at the edges' wrapped source rows and
    summed onto zero at the edges' destination rows. -/
theorem W5_agg (c : Dev nD) :
    W5 m ρ c (Proc.devRef .tc main_v26)
      = Host.scatterAdd (F := Ideal) scatter_S100000x64_S1100000x1_S1100000x64_1_0_0_1
          (broadcastInDim S100000x64 ![] bcast_S_S100000x64 (constant (F := Ideal) S_ .f32 0x00000000#32))
          (val_main_v43 (F := Ideal) (m ((c : Thread nD τ).loc main_arg1)))
          (Host.gather gather_S100000x64_S1100000x1_S1100000x64_1_0_n_n_0_1_164
            (Cert.Gcn.Region0.scaledLin (m ((c : Thread nD τ).loc main_arg0)) (m ((c : Thread nD τ).loc main_arg2))
              (broadcastInDim S100000x1 ![0] bcast_S100000_S100000x1_0 (val_main_v14 (F := Ideal) (m ((c : Thread nD τ).loc main_arg1)))))
            (val_main_v37 (F := Ideal) (m ((c : Thread nD τ).loc main_arg1)))) := by
  show StableHlo.after hostOps1 (W4 m ρ c) (Proc.devRef .tc main_v26) = _
  simp only [hostOps1]
  after_results
  rw [W4_scaledLin, W4_src, W4_dst]
  all_goals rfl

theorem W5_factor (c : Dev nD) :
    W5 m ρ c (Proc.devRef .tc main_v15)
      = broadcastInDim S100000x1 ![0] bcast_S100000_S100000x1_0 (val_main_v14 (F := Ideal) (m ((c : Thread nD τ).loc main_arg1))) := by
  show StableHlo.after hostOps1 (W4 m ρ c) (Proc.devRef .tc main_v15) = _
  simp only [hostOps1]
  after_results
  exact W4_factor m ρ c

/-- The three bias vectors as rows. -/
theorem W5_b1 (c : Dev nD) :
    W5 m ρ c (Proc.devRef .tc main_v27) = shapeCast S1x64 (m ((c : Thread nD τ).loc main_arg3)) shapeCasts_S64_S1x64 := by
  show StableHlo.after hostOps1 (W4 m ρ c) (Proc.devRef .tc main_v27) = _
  simp only [hostOps1]
  after_results
  rw [W4_arg3]
  all_goals rfl
theorem W5_bmu (c : Dev nD) :
    W5 m ρ c (Proc.devRef .tc main_v28) = shapeCast S1x64 (m ((c : Thread nD τ).loc main_arg5)) shapeCasts_S64_S1x64 := by
  show StableHlo.after hostOps1 (W4 m ρ c) (Proc.devRef .tc main_v28) = _
  simp only [hostOps1]
  after_results
  rw [W4_arg5]
  all_goals rfl
theorem W5_blv (c : Dev nD) :
    W5 m ρ c (Proc.devRef .tc main_v29) = shapeCast S1x64 (m ((c : Thread nD τ).loc main_arg7)) shapeCasts_S64_S1x64 := by
  show StableHlo.after hostOps1 (W4 m ρ c) (Proc.devRef .tc main_v29) = _
  simp only [hostOps1]
  after_results
  rw [W4_arg7]
  all_goals rfl
theorem W5_Wmu (c : Dev nD) : W5 m ρ c (Proc.devRef .tc main_arg4) = m ((c : Thread nD τ).loc main_arg4) := by
  show StableHlo.after hostOps1 (W4 m ρ c) (Proc.devRef .tc main_arg4) = _
  simp only [hostOps1]
  after_results
  exact W4_arg4 m ρ c
theorem W5_Wlv (c : Dev nD) : W5 m ρ c (Proc.devRef .tc main_arg6) = m ((c : Thread nD τ).loc main_arg6) := by
  show StableHlo.after hostOps1 (W4 m ρ c) (Proc.devRef .tc main_arg6) = _
  simp only [hostOps1]
  after_results
  exact W4_arg6 m ρ c

end Cert.Gcn.Stages

end
-- ==== Proof.KernelValue.lean ====
/-
  THE KERNEL PROGRAM'S TWO RESULTS READ AT AN ENTRY.

  By module Stages the arrays the second region finds are: the aggregated messages `s` (the rows of the first region's
  output `g` gathered at the edges' source rows, summed onto zero at the destination rows), the column of node
  factors `d`, the three bias rows and the two heads' weights; by module Region1 each result is `headOut` of them.
  Read at an entry:

  * `g (r, k) = lin x W₁ (r, k) · dinv r` (the column of factors read at its row);
  * `s (n, k) = 0 + ∑ e landing on n, g (srow e, k)` (the scatter-add and the row gather read at an index);
  * `s (n, k) · d (n, 0)` is therefore the source-scaled aggregate `aggSrc` of module Spec, and a bias row's entry
    `(0, k)` is the bias vector's entry `k`;

  so each result's entry `(n, j)` is `head aggSrc b₁ W b (n, j)`.
-/
import proofs.«148859_j34497177322134_2_alg».proof.Proof.Stages
import Idealize.ShloMosaic.Lib.ValueLayout

set_option maxRecDepth 16384

noncomputable section

open scoped BigOperators

namespace Cert.Gcn.KernelValue

open Cert.KernelIdeal Cert.KernelIdeal.Gen
open Idealize.ShloMosaic Idealize.ShloMosaic.TcCoe Idealize.ShloMosaic.ValueIdx Idealize.SL.Sem
open Cert.ReferenceIdeal.ReadP (val_main_v14 val_main_v37 val_main_v43)
open Cert.Gcn

/-- The column of factors read at `(r, 0)` is node `r`'s factor. -/
theorem factor_at (ei : EdgeList) (r : Fin 100000) :
    broadcastInDim S100000x1 ![0] bcast_S100000_S100000x1_0 (val_main_v14 (F := Ideal) ei) (ix2 r (0 : Fin 1))
      = dinvOf ei r := by
  unfold dinvOf
  exact broadcastInDim_apply _ bcast_S100000_S100000x1_0 _ (ix2 r (0 : Fin 1)) (ix1 r) (fun a => match a with
    | ⟨0, _⟩ => by show r.val = if (100000 : Nat) = 1 then 0 else r.val; rw [if_neg (by decide)])

/-- The first region's output at `(r, k)`: the linear layer's entry scaled by row `r`'s factor. -/
theorem scaledLin_at (x : S100000x128.Idx → EReal) (w : S64x128.Idx → EReal) (ei : EdgeList) (r : Fin 100000)
    (k : Fin 64) :
    Cert.Gcn.Region0.scaledLin x w
        (broadcastInDim S100000x1 ![0] bcast_S100000_S100000x1_0 (val_main_v14 (F := Ideal) ei)) (ix2 r k)
      = Cert.GcnSpec.lin (fun r i => x (ix2 r i)) (fun k i => w (ix2 k i)) r k * dinvOf ei r := by
  unfold Cert.Gcn.Region0.scaledLin Cert.GcnSpec.lin
  exact congrArg₂ (· * ·) rfl (factor_at ei r)

/-- The aggregated messages at `(n, k)`: zero plus the sum, over the edges landing on `n`, of the gathered rows'
    entries `k`. -/
theorem agg_at (g : S100000x64.Idx → EReal) (ei : EdgeList) (n : Fin 100000) (k : Fin 64) :
    Host.scatterAdd (F := Ideal) scatter_S100000x64_S1100000x1_S1100000x64_1_0_0_1
        (broadcastInDim S100000x64 ![] bcast_S_S100000x64 (constant (F := Ideal) S_ .f32 0x00000000#32))
        (val_main_v43 (F := Ideal) ei)
        (Host.gather gather_S100000x64_S1100000x1_S1100000x64_1_0_n_n_0_1_164 g (val_main_v37 (F := Ideal) ei)) (ix2 n k)
      = 0 + ∑ e : Fin 1100000, if hitOf ei e n then g (ix2 (srowOf ei e) k) else 0 := by
  refine (Cert.RowScatterAdd.host_scatterAdd_apply (N := 100000) (E := 1100000) (C := 64) (φ := .f32)
    Facts₀.scatter_S100000x64_S1100000x1_S1100000x64_1_0_0_1_wf _ (val_main_v43 (F := Ideal) ei) _ n k).trans ?_
  refine congrArg₂ (· + ·) ?_ (Finset.sum_congr rfl fun e _ => ?_)
  · exact (broadcastInDim_apply _ bcast_S_S100000x64 _ (ix2 n k) ix0 (fun a => a.elim0)).trans Ideal.ofBits_zero_f32
  · by_cases he : hitOf ei e n
    · rw [if_pos he, if_pos (show Cert.RowScatterAdd.hits (val_main_v43 (F := Ideal) ei) e n from he)]
      exact Cert.RowGather.gather_apply (N := 100000) (E := 1100000) (C := 64) (by decide)
        Facts₀.gather_S100000x64_S1100000x1_S1100000x64_1_0_n_n_0_1_164_wf g (val_main_v37 (F := Ideal) ei) e k
    · rw [if_neg he, if_neg (show ¬ Cert.RowScatterAdd.hits (val_main_v43 (F := Ideal) ei) e n from he)]

/-- A bias vector laid out as a row, read at `(0, k)`. -/
theorem biasRow_at (b : S64.Idx → EReal) (k : Fin 64) :
    shapeCast S1x64 b shapeCasts_S64_S1x64 (ix2 (0 : Fin 1) k) = b (ix1 k) :=
  shapeCast_a_1a_apply b shapeCasts_S64_S1x64 _ k

/-- One head over the arrays the second region finds, read at `(n, j)`. -/
theorem head_at (x : S100000x128.Idx → EReal) (w1 : S64x128.Idx → EReal) (b1 : S64.Idx → EReal)
    (w : S64x64.Idx → EReal) (b : S64.Idx → EReal) (ei : EdgeList) (n : Fin 100000) (j : Fin 64) :
    Cert.Gcn.Region1.headOut
        (Host.scatterAdd (F := Ideal) scatter_S100000x64_S1100000x1_S1100000x64_1_0_0_1
          (broadcastInDim S100000x64 ![] bcast_S_S100000x64 (constant (F := Ideal) S_ .f32 0x00000000#32))
          (val_main_v43 (F := Ideal) ei)
          (Host.gather gather_S100000x64_S1100000x1_S1100000x64_1_0_n_n_0_1_164
            (Cert.Gcn.Region0.scaledLin x w1
              (broadcastInDim S100000x1 ![0] bcast_S100000_S100000x1_0 (val_main_v14 (F := Ideal) ei)))
            (val_main_v37 (F := Ideal) ei)))
        (broadcastInDim S100000x1 ![0] bcast_S100000_S100000x1_0 (val_main_v14 (F := Ideal) ei))
        (shapeCast S1x64 b1 shapeCasts_S64_S1x64) w (shapeCast S1x64 b shapeCasts_S64_S1x64) (ix2 n j)
      = Cert.GcnSpec.head
          (Cert.GcnSpec.aggSrc (hitOf ei) (srowOf ei) (dinvOf ei)
            (Cert.GcnSpec.lin (fun r i => x (ix2 r i)) (fun k i => w1 (ix2 k i))))
          (fun k => b1 (ix1 k)) (fun j' k => w (ix2 j' k)) (fun j' => b (ix1 j')) n j := by
  unfold Cert.Gcn.Region1.headOut Cert.GcnSpec.head Cert.GcnSpec.aggSrc
  refine congrArg₂ (· + ·) (Finset.sum_congr rfl fun k _ => ?_) (biasRow_at b j)
  refine congrArg₂ (· * ·) (congrArg₂ max (congrArg₂ (· + ·) (congrArg₂ (· * ·) ?_ (factor_at ei n)) (biasRow_at b1 k)) rfl) rfl
  refine (agg_at _ ei n k).trans ?_
  refine congrArg (fun s : EReal => 0 + s) (Finset.sum_congr rfl fun e _ => ?_)
  by_cases he : hitOf ei e n
  · rw [if_pos he, if_pos he, scaledLin_at]
  · rw [if_neg he, if_neg he]

variable (m : (ℓ : Loc nD τ sig) → Buf (Elt Ideal) ℓ) (ρ : Dev nD → PrngReg)

/-- ENTRY `(n, j)` OF THE FIRST RESULT as the run leaves it: the head of the source-scaled aggregate. -/
theorem mu_at (c : Dev nD) (n : Fin 100000) (j : Fin 64) :
    W6 m ρ c (Proc.devRef .tc main_v30_0) (ix2 n j)
      = Cert.GcnSpec.head
          (Cert.GcnSpec.aggSrc (hitOf (m ((c : Thread nD τ).loc main_arg1))) (srowOf (m ((c : Thread nD τ).loc main_arg1))) (dinvOf (m ((c : Thread nD τ).loc main_arg1)))
            (Cert.GcnSpec.lin (fun r i => m ((c : Thread nD τ).loc main_arg0) (ix2 r i))
              (fun k i => m ((c : Thread nD τ).loc main_arg2) (ix2 k i))))
          (fun k => m ((c : Thread nD τ).loc main_arg3) (ix1 k))
          (fun j' k => m ((c : Thread nD τ).loc main_arg4) (ix2 j' k))
          (fun j' => m ((c : Thread nD τ).loc main_arg5) (ix1 j')) n j := by
  have hW : W6 m ρ c (Proc.devRef .tc main_v30_0)
      = Cert.Gcn.Region1.headOut (W5 m ρ c (Proc.devRef .tc main_v26)) (W5 m ρ c (Proc.devRef .tc main_v15))
          (W5 m ρ c (Proc.devRef .tc main_v27)) (W5 m ρ c (Proc.devRef .tc main_arg4))
          (W5 m ρ c (Proc.devRef .tc main_v28)) :=
    (W6_arr m ρ c 7).trans (Cert.Gcn.Region1.final7 (V5 m ρ) c)
  rw [hW, Stages.W5_agg, Stages.W5_factor, Stages.W5_b1, Stages.W5_Wmu, Stages.W5_bmu]
  exact head_at _ _ _ _ _ (m ((c : Thread nD τ).loc main_arg1)) n j

/-- ENTRY `(n, j)` OF THE SECOND RESULT as the run leaves it: the head of the source-scaled aggregate. -/
theorem lv_at (c : Dev nD) (n : Fin 100000) (j : Fin 64) :
    W6 m ρ c (Proc.devRef .tc main_v30_1) (ix2 n j)
      = Cert.GcnSpec.head
          (Cert.GcnSpec.aggSrc (hitOf (m ((c : Thread nD τ).loc main_arg1))) (srowOf (m ((c : Thread nD τ).loc main_arg1))) (dinvOf (m ((c : Thread nD τ).loc main_arg1)))
            (Cert.GcnSpec.lin (fun r i => m ((c : Thread nD τ).loc main_arg0) (ix2 r i))
              (fun k i => m ((c : Thread nD τ).loc main_arg2) (ix2 k i))))
          (fun k => m ((c : Thread nD τ).loc main_arg3) (ix1 k))
          (fun j' k => m ((c : Thread nD τ).loc main_arg6) (ix2 j' k))
          (fun j' => m ((c : Thread nD τ).loc main_arg7) (ix1 j')) n j := by
  have hW : W6 m ρ c (Proc.devRef .tc main_v30_1)
      = Cert.Gcn.Region1.headOut (W5 m ρ c (Proc.devRef .tc main_v26)) (W5 m ρ c (Proc.devRef .tc main_v15))
          (W5 m ρ c (Proc.devRef .tc main_v27)) (W5 m ρ c (Proc.devRef .tc main_arg6))
          (W5 m ρ c (Proc.devRef .tc main_v29)) :=
    (W6_arr m ρ c 8).trans (Cert.Gcn.Region1.final8 (V5 m ρ) c)
  rw [hW, Stages.W5_agg, Stages.W5_factor, Stages.W5_b1, Stages.W5_Wlv, Stages.W5_blv]
  exact head_at _ _ _ _ _ (m ((c : Thread nD τ).loc main_arg1)) n j

end Cert.Gcn.KernelValue

end
-- ==== Proof.LibVecGather.lean ====
/-
  THE VECTOR GATHER READ AT AN INDEX. For a flat table `T : [N]` and an integer array of `E` positions, the array
  `T[idx] : [E]` is `stablehlo.gather` with offset_dims [], collapsed_slice_dims [0], start_index_map [0],
  index_vector_dim 1 and slice_sizes [1] over the positions as `[E, 1]`. Its element `e` is the table's element
  `row e`, where `row e` is the `e`-th position read as a signed integer and clamped into `[0, N − 1]` (a gather
  clamps every start index so that its slice fits). The position `row e` is the one the row gather of a table
  `[N, C]` reads its row at, so a vector and a matrix gathered at the same positions read the same node. Generic in
  the sizes `N`, `E`, the width of the index words and the element type.
-/
import Idealize.ShloMosaic.PureOps.Ideal
import Idealize.ShloMosaic.Lib.ValueIdx
import proofs.«148859_j34497177322134_2_alg».proof.Proof.LibRowGather

noncomputable section

namespace Cert.VecGather

open Idealize.ShloMosaic Idealize.ShloMosaic.ValueIdx

/-- The dimension numbers of `T[idx]` for `T : [N]` and the positions as `[E, 1]`: offset_dims [],
    collapsed_slice_dims [0], start_index_map [0], index_vector_dim 1, slice_sizes [1]. -/
abbrev dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads its one start index at `(e, 0)` of the positions. -/
theorem siIdx_eq {N E : Nat} (wf : GatherDims.WF ⟨1, ![N]⟩ ⟨2, ![E, 1]⟩ ⟨1, ![E]⟩ [] [0] [] [0] [] 1 ![1]) (e : Fin E) :
    (dims N E wf).siIdx (ix1 e) ⟨List.idxOf (0 : Fin 1) (dims N E wf).startIndexMap,
        List.idxOf_lt_length_iff.2 (List.mem_singleton.mpr rfl)⟩ = ix2 e (0 : Fin 1) := by
  funext b; refine Fin.ext ?_
  match b with
  | ⟨0, _⟩ => rfl
  | ⟨1, _⟩ => rfl

/-- THE VECTOR GATHER READ AT `e`: `T[idx][e] = T[row e]`, the position the `e`-th start index names once read
    signed and clamped into `[0, N − 1]`. -/
theorem gather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (dims N E wf) x idx (ix1 e) = x (ix1 (Cert.RowGather.row hN idx e)) := by
  unfold Host.gather
  congr 1
  funext a
  obtain rfl : a = 0 := Subsingleton.elim _ _
  refine Fin.ext ?_
  show (dims N E wf).start (ix1 e) idx 0 + (dims N E wf).batchCoord (ix1 e) 0 + (dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims N E wf).startIndexMap from List.mem_singleton.mpr rfl)]
  rw [siIdx_eq wf e]
  rfl

end Cert.VecGather

end
-- ==== Proof.RefValue.lean ====
/-
  THE REFERENCE'S TWO RESULTS READ AT AN ENTRY. The reference program is a graph-convolution layer followed by two
  linear heads. Read one operation at a time at an entry `(n, j)`, each result is

      (∑ k, max (agg n k + b₁ k) 0 · W j k) + b j,

  where `agg n k = 0 + ∑ e landing on n, h (srow e) k · (dinv (srow e) · dinv (drow e))` and `h = x · W₁ᵀ`:
  the product `h` is gathered along the edges' source rows, every gathered row is scaled by the edge's factor (the
  product of the per-node factor gathered at the source row and at the destination row), the scaled rows are
  summed onto zero at the edges' destination rows, the bias is added and the negative part cut off; a head is then a
  product-sum over the hidden features plus its own bias. The steps below read, in this order: the two index
  columns the source gathers use (they are the same stage), the edge's factor, the linear layer, one scaled
  message, the aggregate, the rectified aggregate, and the two heads.
-/
import proofs.«148859_j34497177322134_2_alg».proof.Proof.Shared
import proofs.«148859_j34497177322134_2_alg».proof.Proof.LibVecGather

noncomputable section

open scoped BigOperators

namespace Cert.Gcn

open Cert.ReferenceIdeal Cert.ReferenceIdeal.ReadP Idealize.ShloMosaic Idealize.ShloMosaic.ValueIdx

/-- The wrapped source row numbers are computed twice by the program, once for the factor's gather and once for the
    feature rows' gather, by the same operations on the same operands: the two columns are the same array. -/
theorem v20_eq_v37 (x1 : (⟨S2x1000000, .i32⟩ : BufTy).Contents (Elt Ideal)) :
    val_main_v20 (F := Ideal) x1 = val_main_v37 (F := Ideal) x1 := rfl

/-- The factor gathered at the edge's source row. -/
theorem v21_at (x1 : (⟨S2x1000000, .i32⟩ : BufTy).Contents (Elt Ideal)) (e : Fin 1100000) :
    val_main_v21 (F := Ideal) x1 (ix1 e) = dinvOf x1 (srowOf x1 e) := by
  unfold val_main_v21
  rw [v20_eq_v37]
  exact Cert.VecGather.gather_apply (N := 100000) (E := 1100000) (by decide)
    Facts₀.gather_S100000_S1100000x1_S1100000_n_0_n_n_0_1_1_wf
    (val_main_v14 (F := Ideal) x1) (val_main_v37 (F := Ideal) x1) e

/-- The factor gathered at the edge's destination row. -/
theorem v28_at (x1 : (⟨S2x1000000, .i32⟩ : BufTy).Contents (Elt Ideal)) (e : Fin 1100000) :
    val_main_v28 (F := Ideal) x1 (ix1 e) = dinvOf x1 (drowOf x1 e) := by
  unfold val_main_v28
  exact Cert.VecGather.gather_apply (N := 100000) (E := 1100000) (by decide)
    Facts₀.gather_S100000_S1100000x1_S1100000_n_0_n_n_0_1_1_wf
    (val_main_v14 (F := Ideal) x1) (val_main_v27 (F := Ideal) x1) e

/-- The edge's factor: the per-node factor at its source row times the one at its destination row. -/
theorem v29_at (x1 : (⟨S2x1000000, .i32⟩ : BufTy).Contents (Elt Ideal)) (e : Fin 1100000) :
    val_main_v29 (F := Ideal) x1 (ix1 e) = dinvOf x1 (srowOf x1 e) * dinvOf x1 (drowOf x1 e) := by
  rw [val_main_v29_apply, Ideal.mulf_def, v21_at, v28_at]

/-- The edge's factor spread along the features: entry `(e, k)` of the broadcast is the edge's factor. -/
theorem v40_at (x1 : (⟨S2x1000000, .i32⟩ : BufTy).Contents (Elt Ideal)) (e : Fin 1100000) (k : Fin 64) :
    val_main_v40 (F := Ideal) x1 (ix2 e k) = dinvOf x1 (srowOf x1 e) * dinvOf x1 (drowOf x1 e) := by
  rw [val_main_v40_apply, val_main_v39_apply]
  have hi : idx_main_v39 (idx_main_v40 (ix2 e k)) = ix1 e := by
    funext a; refine Fin.ext ?_
    match a with
    | ⟨0, _⟩ => rfl
  rw [hi, v29_at]

/-- The linear layer: entry `(r, k)` of `x · W₁ᵀ` is `∑ i, x r i · W₁ k i`. -/
theorem v31_at (x0 : (⟨S100000x128, .f32⟩ : BufTy).Contents (Elt Ideal)) (x2 : (⟨S64x128, .f32⟩ : BufTy).Contents (Elt Ideal))
    (r : Fin 100000) (k : Fin 64) :
    val_main_v31 (F := Ideal) x0 x2 (ix2 r k)
      = Cert.GcnSpec.lin (fun r i => x0 (ix2 r i)) (fun k i => x2 (ix2 k i)) r k := by
  rw [val_main_v31_apply]
  unfold Cert.GcnSpec.lin
  refine Finset.sum_congr rfl fun i _ => ?_
  rw [val_main_v30_apply]
  have hl : lidx_main_v31 (ix2 r k) i = ix2 r i := by
    funext a; refine Fin.ext ?_
    match a with
    | ⟨0, _⟩ => rfl
    | ⟨1, _⟩ => rfl
  have hr : idx_main_v30 (ridx_main_v31 (ix2 r k) i) = ix2 k i := by
    funext a; refine Fin.ext ?_
    match a with
    | ⟨0, _⟩ => rfl
    | ⟨1, _⟩ => rfl
  rw [hl, hr]

/-- The gathered feature row: entry `(e, k)` is the linear layer's entry at the edge's source row. -/
theorem v38_at (x0 : (⟨S100000x128, .f32⟩ : BufTy).Contents (Elt Ideal)) (x1 : (⟨S2x1000000, .i32⟩ : BufTy).Contents (Elt Ideal))
    (x2 : (⟨S64x128, .f32⟩ : BufTy).Contents (Elt Ideal)) (e : Fin 1100000) (k : Fin 64) :
    val_main_v38 (F := Ideal) x0 x1 x2 (ix2 e k)
      = Cert.GcnSpec.lin (fun r i => x0 (ix2 r i)) (fun k i => x2 (ix2 k i)) (srowOf x1 e) k := by
  unfold val_main_v38
  exact (Cert.RowGather.gather_apply (N := 100000) (E := 1100000) (C := 64) (by decide)
    Facts₀.gather_S100000x64_S1100000x1_S1100000x64_1_0_n_n_0_1_164_wf
    (val_main_v31 (F := Ideal) x0 x2) (val_main_v37 (F := Ideal) x1) e k).trans
    (v31_at x0 x2 (srowOf x1 e) k)

/-- One message: the gathered feature row scaled by the edge's factor. -/
theorem v41_at (x0 : (⟨S100000x128, .f32⟩ : BufTy).Contents (Elt Ideal)) (x1 : (⟨S2x1000000, .i32⟩ : BufTy).Contents (Elt Ideal))
    (x2 : (⟨S64x128, .f32⟩ : BufTy).Contents (Elt Ideal)) (e : Fin 1100000) (k : Fin 64) :
    val_main_v41 (F := Ideal) x0 x1 x2 (ix2 e k)
      = Cert.GcnSpec.lin (fun r i => x0 (ix2 r i)) (fun k i => x2 (ix2 k i)) (srowOf x1 e) k
          * (dinvOf x1 (srowOf x1 e) * dinvOf x1 (drowOf x1 e)) := by
  rw [val_main_v41_apply, Ideal.mulf_def, v38_at, v40_at]

/-- The array the messages are summed onto is zero everywhere. -/
theorem v42_at (n : Fin 100000) (k : Fin 64) : val_main_v42 (F := Ideal) (ix2 n k) = 0 := by
  rw [val_main_v42_apply, val_main_cst_8_apply]
  exact Ideal.ofBits_zero_f32

/-- THE AGGREGATE: entry `(n, k)` of the scatter-add is zero plus the sum, over the edges landing on `n`, of the
    messages' entries `k`. -/
theorem v44_at (x0 : (⟨S100000x128, .f32⟩ : BufTy).Contents (Elt Ideal)) (x1 : (⟨S2x1000000, .i32⟩ : BufTy).Contents (Elt Ideal))
    (x2 : (⟨S64x128, .f32⟩ : BufTy).Contents (Elt Ideal)) (n : Fin 100000) (k : Fin 64) :
    val_main_v44 (F := Ideal) x0 x1 x2 (ix2 n k)
      = Cert.GcnSpec.aggEdge (hitOf x1) (srowOf x1) (drowOf x1) (dinvOf x1)
          (Cert.GcnSpec.lin (fun r i => x0 (ix2 r i)) (fun k i => x2 (ix2 k i))) n k := by
  unfold val_main_v44
  refine (Cert.RowScatterAdd.host_scatterAdd_apply (N := 100000) (E := 1100000) (C := 64) (φ := .f32)
    Facts₀.scatter_S100000x64_S1100000x1_S1100000x64_1_0_0_1_wf
    (val_main_v42 (F := Ideal)) (val_main_v43 (F := Ideal) x1) (val_main_v41 (F := Ideal) x0 x1 x2) n k).trans ?_
  unfold Cert.GcnSpec.aggEdge
  rw [v42_at]
  refine congrArg (fun s : EReal => 0 + s) (Finset.sum_congr rfl fun e _ => ?_)
  by_cases he : hitOf x1 e n
  · rw [if_pos he, if_pos (show Cert.RowScatterAdd.hits (val_main_v43 (F := Ideal) x1) e n from he), v41_at]
  · rw [if_neg he, if_neg (show ¬ Cert.RowScatterAdd.hits (val_main_v43 (F := Ideal) x1) e n from he)]

/-- The first bias spread along the nodes: entry `(n, k)` of the broadcast is `b₁ k`. -/
theorem v46_at (x3 : (⟨S64, .f32⟩ : BufTy).Contents (Elt Ideal)) (n : Fin 100000) (k : Fin 64) :
    val_main_v46 (F := Ideal) x3 (ix2 n k) = x3 (ix1 k) := by
  rw [val_main_v46_apply, val_main_v45_apply]
  have hi : idx_main_v45 (idx_main_v46 (ix2 n k)) = ix1 k := by
    funext a; refine Fin.ext ?_
    match a with
    | ⟨0, _⟩ => rfl
  rw [hi]

/-- The rectifier's zero operand is zero everywhere. -/
theorem call1_v0_at (n : Fin 100000) (k : Fin 64) : val_main_call1_v0 (F := Ideal) (ix2 n k) = 0 := by
  rw [val_main_call1_v0_apply, val_main_call1_cst_apply]
  exact Ideal.ofBits_zero_f32

/-- THE HIDDEN LAYER: entry `(n, k)` is the aggregate plus the first bias, its negative part cut off. -/
theorem v48_at (x0 : (⟨S100000x128, .f32⟩ : BufTy).Contents (Elt Ideal)) (x1 : (⟨S2x1000000, .i32⟩ : BufTy).Contents (Elt Ideal))
    (x2 : (⟨S64x128, .f32⟩ : BufTy).Contents (Elt Ideal)) (x3 : (⟨S64, .f32⟩ : BufTy).Contents (Elt Ideal))
    (n : Fin 100000) (k : Fin 64) :
    val_main_v48 (F := Ideal) x0 x1 x2 x3 (ix2 n k)
      = max (Cert.GcnSpec.aggEdge (hitOf x1) (srowOf x1) (drowOf x1) (dinvOf x1)
          (Cert.GcnSpec.lin (fun r i => x0 (ix2 r i)) (fun k i => x2 (ix2 k i))) n k + x3 (ix1 k)) 0 := by
  rw [val_main_v48_apply, Ideal.maximumf_def, val_main_v47_apply, Ideal.addf_def, v44_at, v46_at, call1_v0_at]

/-- The first head's bias spread along the nodes: entry `(n, j)` of the broadcast is `b j`. -/
theorem v52_at (x5 : (⟨S64, .f32⟩ : BufTy).Contents (Elt Ideal)) (n : Fin 100000) (j : Fin 64) :
    val_main_v52 (F := Ideal) x5 (ix2 n j) = x5 (ix1 j) := by
  rw [val_main_v52_apply, val_main_v51_apply]
  have hi : idx_main_v51 (idx_main_v52 (ix2 n j)) = ix1 j := by
    funext a; refine Fin.ext ?_
    match a with
    | ⟨0, _⟩ => rfl
  rw [hi]

/-- The second head's bias spread along the nodes: entry `(n, j)` of the broadcast is `b j`. -/
theorem v57_at (x7 : (⟨S64, .f32⟩ : BufTy).Contents (Elt Ideal)) (n : Fin 100000) (j : Fin 64) :
    val_main_v57 (F := Ideal) x7 (ix2 n j) = x7 (ix1 j) := by
  rw [val_main_v57_apply, val_main_v56_apply]
  have hi : idx_main_v56 (idx_main_v57 (ix2 n j)) = ix1 j := by
    funext a; refine Fin.ext ?_
    match a with
    | ⟨0, _⟩ => rfl
  rw [hi]

/-- THE FIRST RESULT READ AT `(n, j)`: the head `relu (agg + b₁) · Wᵀ + b` over the edge-by-edge aggregate. -/
theorem ref_mu (x0 : (⟨S100000x128, .f32⟩ : BufTy).Contents (Elt Ideal)) (x1 : (⟨S2x1000000, .i32⟩ : BufTy).Contents (Elt Ideal))
    (x2 : (⟨S64x128, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (n : Fin 100000) (j : Fin 64) :
    val_main_v53 (F := Ideal) x0 x1 x2 x3 x4 x5 (ix2 n j)
      = Cert.GcnSpec.head (Cert.GcnSpec.aggEdge (hitOf x1) (srowOf x1) (drowOf x1) (dinvOf x1)
            (Cert.GcnSpec.lin (fun r i => x0 (ix2 r i)) (fun k i => x2 (ix2 k i))))
          (fun k => x3 (ix1 k)) (fun j' k => x4 (ix2 j' k)) (fun j' => x5 (ix1 j')) n j := by
  rw [val_main_v53_apply, Ideal.addf_def, val_main_v50_apply, v52_at]
  unfold Cert.GcnSpec.head
  refine congrArg (fun s : EReal => s + x5 (ix1 j)) (Finset.sum_congr rfl fun k _ => ?_)
  have hl : lidx_main_v50 (ix2 n j) k = ix2 n k := by
    funext a; refine Fin.ext ?_
    match a with
    | ⟨0, _⟩ => rfl
    | ⟨1, _⟩ => rfl
  have hr : idx_main_v49 (ridx_main_v50 (ix2 n j) k) = ix2 j k := by
    funext a; refine Fin.ext ?_
    match a with
    | ⟨0, _⟩ => rfl
    | ⟨1, _⟩ => rfl
  rw [hl, v48_at, val_main_v49_apply, hr]

/-- THE SECOND RESULT READ AT `(n, j)`: the same head with the second pair of weights and bias. -/
theorem ref_lv (x0 : (⟨S100000x128, .f32⟩ : BufTy).Contents (Elt Ideal)) (x1 : (⟨S2x1000000, .i32⟩ : BufTy).Contents (Elt Ideal))
    (x2 : (⟨S64x128, .f32⟩ : BufTy).Contents (Elt Ideal)) (x3 : (⟨S64, .f32⟩ : BufTy).Contents (Elt Ideal))
    (x6 : (⟨S64x64, .f32⟩ : BufTy).Contents (Elt Ideal)) (x7 : (⟨S64, .f32⟩ : BufTy).Contents (Elt Ideal))
    (n : Fin 100000) (j : Fin 64) :
    val_main_v58 (F := Ideal) x0 x1 x2 x3 x6 x7 (ix2 n j)
      = Cert.GcnSpec.head (Cert.GcnSpec.aggEdge (hitOf x1) (srowOf x1) (drowOf x1) (dinvOf x1)
            (Cert.GcnSpec.lin (fun r i => x0 (ix2 r i)) (fun k i => x2 (ix2 k i))))
          (fun k => x3 (ix1 k)) (fun j' k => x6 (ix2 j' k)) (fun j' => x7 (ix1 j')) n j := by
  rw [val_main_v58_apply, Ideal.addf_def, val_main_v55_apply, v57_at]
  unfold Cert.GcnSpec.head
  refine congrArg (fun s : EReal => s + x7 (ix1 j)) (Finset.sum_congr rfl fun k _ => ?_)
  have hl : lidx_main_v55 (ix2 n j) k = ix2 n k := by
    funext a; refine Fin.ext ?_
    match a with
    | ⟨0, _⟩ => rfl
    | ⟨1, _⟩ => rfl
  have hr : idx_main_v54 (ridx_main_v55 (ix2 n j) k) = ix2 j k := by
    funext a; refine Fin.ext ?_
    match a with
    | ⟨0, _⟩ => rfl
    | ⟨1, _⟩ => rfl
  rw [hl, v48_at, val_main_v54_apply, hr]

end Cert.Gcn

end
-- ==== Proof.Facts.lean ====
/-
  TWO FACTS ABOUT THE GRAPH'S DATA.

  1. An edge that lands on node `n` reads its destination factor at node `n`. The scatter reads the edge's
     destination row number signed and unclamped; the gather reads the same word after the wrap "add the node count
     if negative" and clamps it into `[0, 99999]`. When the signed reading is a node number `n < 100000` it is not
     negative, so the wrap keeps the word, and the clamp keeps `n`.
  2. A node's factor `deg^(-1/2)` (zero where the degree is not positive) is a real number whatever extended real
     the degree is: a degree that is not positive gives `0`; the degree `+∞` gives `rsqrt ⊤ = 0`; a positive real
     degree `x` gives `(√x)⁻¹`.
-/
import proofs.«148859_j34497177322134_2_alg».proof.Proof.Shared

noncomputable section

namespace Cert.Gcn

open Cert.ReferenceIdeal Cert.ReferenceIdeal.ReadP Idealize.ShloMosaic Idealize.ShloMosaic.ValueIdx

/-! ## 1. The destination row of an edge that lands on a node -/

/-- A 32-bit word whose signed reading is a number `n < 100000`: the wrap "add 100000 if negative" keeps the word,
    and its signed reading cut off at `99999` is `n`. -/
theorem wrap_clamp_of_toInt_eq (b : BitVec 32) (n : Nat) (hn : n < 100000) (hb : b.toInt = (n : Int)) :
    min (Scalar.select (IntOp.cmpi .slt b 0#32) (IntOp.addi b 100000#32) b).toInt.toNat (100000 - 1) = n := by
  have hlt : ¬ (IntOp.cmpi .slt b 0#32 = 1#1) := by
    rw [IntOp.cmpi_slt, BitVec.toInt_zero, hb]; omega
  rw [eq_zero_of_ne_one hlt, select_zero, hb]
  omega

/-- The scatter's index column at edge `e` is the joined destination row numbers at `e`. -/
theorem idx_main_v43_ix2 (e : Fin 1100000) : idx_main_v43 (ix2 e (0 : Fin 1)) = ix1 e := by
  funext a; match a with | ⟨0, _⟩ => rfl

/-- The gather's index column at edge `e` is the wrapped destination row numbers at `e`. -/
theorem idx_main_v27_ix2 (e : Fin 1100000) : idx_main_v27 (ix2 e (0 : Fin 1)) = ix1 e := by
  funext a; match a with | ⟨0, _⟩ => rfl

/-- AN EDGE THAT LANDS ON NODE `n` READS ITS DESTINATION FACTOR AT `n`. -/
theorem drow_of_hit (ei : EdgeList) (e : Fin 1100000) (n : Fin 100000) : hitOf ei e n → drowOf ei e = n := by
  intro h
  unfold hitOf Cert.RowScatterAdd.hits at h
  rw [val_main_v43_apply, idx_main_v43_ix2] at h
  refine Fin.ext ?_
  unfold drowOf
  rw [Cert.RowGather.row_val, val_main_v27_apply, idx_main_v27_ix2, val_main_v26_apply, val_main_v23_apply,
    val_main_v25_apply, val_main_v22_apply, val_main_v24_apply, val_main_c_4_apply, val_main_c_5_apply]
  generalize val_main_v6 (F := Ideal) ei (ix1 e) = b at h ⊢
  exact wrap_clamp_of_toInt_eq b n.val n.isLt h

/-! ## 2. A node's factor is a real number -/

/-- The comparison "greater than" comes out 1 exactly when the order says so. -/
theorem cmp_ogt_eq_one (x y : EReal) : Ideal.cmp .ogt x y = 1#1 ↔ y < x := by
  show BitVec.ofBool (decide (y < x)) = 1#1 ↔ y < x
  by_cases h : y < x
  · simp [h]
  · simp [h]

/-- `select (d > 0) (rsqrt d) 0` is a real number for every extended real `d`. -/
theorem select_rsqrt_real (d : EReal) :
    ∃ a : ℝ, Scalar.select (Ideal.cmp .ogt d 0) (Ideal.rsqrt d) (0 : EReal) = (a : EReal) := by
  by_cases hc : Ideal.cmp .ogt d 0 = 1#1
  · rw [hc, select_one]
    induction d using EReal.rec with
    | bot => exact absurd ((cmp_ogt_eq_one _ _).1 hc) (by simp)
    | top => exact ⟨0, by rw [Ideal.rsqrt_top]; rfl⟩
    | coe x =>
      have hx : (0 : ℝ) < x := EReal.coe_pos.1 ((cmp_ogt_eq_one _ _).1 hc)
      refine ⟨(Real.sqrt x)⁻¹, ?_⟩
      rw [Ideal.rsqrt_coe, if_neg (not_lt.mpr hx.le), if_neg hx.ne']
  · rw [eq_zero_of_ne_one hc, select_zero]
    exact ⟨0, rfl⟩

/-- A NODE'S FACTOR IS A REAL NUMBER. -/
theorem dinv_real (ei : EdgeList) (r : Fin 100000) : ∃ a : ℝ, dinvOf ei r = (a : EReal) := by
  unfold dinvOf
  rw [val_main_v14_apply, val_main_v12_apply, val_main_v13_apply, val_main_v11_apply, val_main_call0_v1_apply,
    val_main_call0_v0_apply, val_main_cst_1_apply, val_main_cst_2_apply]
  generalize val_main_v10 (F := Ideal) ei (ix1 r) = d
  rw [Ideal.ofBits_def, Ideal.ofBits_zero_f32, Ideal.cmpf_def, Ideal.hostUnary_rsqrt_def]
  exact select_rsqrt_real d

end Cert.Gcn

end
-- ==== Proof.Bridge.lean ====
/-
  THE TWO PROGRAMS' RESULTS ARE EQUAL, entry by entry, under the precondition.

  The kernel program's result entry is the head of the SOURCE-SCALED aggregate (module KernelValue): every message
  `h (srow e) · dinv (srow e)` is summed over the edges landing on `n` and the sum is scaled by `dinv n`. The
  reference's is the head of the EDGE-SCALED aggregate (module RefValue): every message is scaled by
  `dinv (srow e) · dinv (drow e)` before the sum. The two aggregates agree (module Spec) because

  * every entry of `h = x · W₁ᵀ` is a real number — the precondition makes every entry of `x` and of `W₁` finite;
  * every node factor is a real number — `deg^(-1/2)` where the degree is positive (a positive real's inverse
    square root, or `0` for an infinite degree), `0` elsewhere;
  * an edge that lands on `n` has a destination row number in range, which wrapping and clamping leave at `n`.

  The rest of a head (bias, rectifier, the product-sum with the head's weights, its bias) is the same expression of
  the aggregate on both sides.
-/
import proofs.«148859_j34497177322134_2_alg».proof.Proof.KernelValue
import proofs.«148859_j34497177322134_2_alg».proof.Proof.RefValue
import proofs.«148859_j34497177322134_2_alg».proof.Proof.Facts

noncomputable section

open scoped BigOperators

namespace Cert.Gcn

open Idealize.ShloMosaic Idealize.ShloMosaic.ValueIdx

/-- A head of the source-scaled aggregate is the head of the edge-scaled aggregate, when the features and the first
    layer's weights are real. -/
theorem head_aggSrc_eq_head_aggEdge (ei : EdgeList) (x : Fin 100000 → Fin 128 → EReal) (w1 : Fin 64 → Fin 128 → EReal)
    (b1 : Fin 64 → EReal) (w : Fin 64 → Fin 64 → EReal) (b : Fin 64 → EReal)
    (hx : ∀ r i, ∃ a : ℝ, x r i = (a : EReal)) (hw : ∀ k i, ∃ a : ℝ, w1 k i = (a : EReal))
    (n : Fin 100000) (j : Fin 64) :
    Cert.GcnSpec.head (Cert.GcnSpec.aggSrc (hitOf ei) (srowOf ei) (dinvOf ei) (Cert.GcnSpec.lin x w1)) b1 w b n j
      = Cert.GcnSpec.head
          (Cert.GcnSpec.aggEdge (hitOf ei) (srowOf ei) (drowOf ei) (dinvOf ei) (Cert.GcnSpec.lin x w1)) b1 w b n j := by
  unfold Cert.GcnSpec.head
  refine congrArg (· + b j) (Finset.sum_congr rfl fun k _ => ?_)
  rw [Cert.GcnSpec.aggSrc_eq_aggEdge (hitOf ei) (srowOf ei) (drowOf ei) (dinvOf ei) (Cert.GcnSpec.lin x w1)
    (Cert.GcnSpec.lin_real x w1 hx hw) (dinv_real ei) (drow_of_hit ei) n k]

end Cert.Gcn

end
-- ==== Proof.FiniteInputs.lean ====
/-
  THE FLOAT INPUTS ARE REAL NUMBERS. The certificate's precondition says that a conjunction of seven tests
  "every entry's absolute value is below +∞" — one per float argument — comes out true. Read back: the conjunction
  gives each test; a test that reduces an array of one-bit words by "and" to 1 had a 1 at every entry; and an
  extended real whose absolute value `max x (−x)` is below `⊤` is neither `⊤` nor `⊥`, so it is a real number.
  Stated for the node features (the first argument, 100000 × 128) and the first weight matrix (the third, 64 × 128).
-/
import proofs.«148859_j34497177322134_2_alg».proof.Proof.Gen.Pre_finite_inputs
import Idealize.ShloMosaic.Lib.ReduceAll
import Idealize.ShloMosaic.Lib.ValueIdx
import Idealize.ShloMosaic.PureOps.Ideal.Laws

noncomputable section

namespace Cert.Gcn

open Idealize.ShloMosaic Idealize.ShloMosaic.ValueIdx

/-- The scalar shape has one index. -/
instance subsingleton_scalar_idx : Subsingleton Cert.Pre_finite_inputs.S_.Idx := ⟨fun a b => funext fun d => d.elim0⟩

/-- An extended real whose absolute value compares below `+∞` is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max x (-x) < ⊤ := by
    by_contra hn
    simp [Ideal.cmp, hn] at h'
  rw [max_lt_iff] at hlt
  induction x using EReal.rec with
  | bot => exact absurd hlt.2 (by simp)
  | top => exact absurd hlt.1 (by simp)
  | coe r => exact ⟨r, rfl⟩

section Decode
variable {a0 : FVec Ideal Cert.Pre_finite_inputs.S100000x128 .f32} {a1 : IVec Cert.Pre_finite_inputs.S2x1000000 32}
  {a2 : FVec Ideal Cert.Pre_finite_inputs.S64x128 .f32} {a3 : FVec Ideal Cert.Pre_finite_inputs.S64 .f32}
  {a4 : FVec Ideal Cert.Pre_finite_inputs.S64x64 .f32} {a5 : FVec Ideal Cert.Pre_finite_inputs.S64 .f32}
  {a6 : FVec Ideal Cert.Pre_finite_inputs.S64x64 .f32} {a7 : FVec Ideal Cert.Pre_finite_inputs.S64 .f32}

/-- The precondition gives the first two tests: "every node feature is finite" and "every entry of the first weight
    matrix is finite", each still as a reduction by "and" that came out 1. -/
theorem tests_of_pre
    (h : Cert.Pre_finite_inputs.fn (F := Ideal) a0 a1 a2 a3 a4 a5 a6 a7 = (fun _ => 1#1)) :
    (∀ i, FloatOps.cmpf (F := Ideal) (φ := .f32) .olt (FloatOps.hostAbsf (F := Ideal) (φ := .f32) (a0 i))
        (FloatOps.ofBits (F := Ideal) .f32 0x7F800000#32) = 1#1)
    ∧ (∀ i, FloatOps.cmpf (F := Ideal) (φ := .f32) .olt (FloatOps.hostAbsf (F := Ideal) (φ := .f32) (a2 i))
        (FloatOps.ofBits (F := Ideal) .f32 0x7F800000#32) = 1#1) := by
  have h0 := congrFun h ix0
  dsimp only [Cert.Pre_finite_inputs.fn, Cert.Pre_finite_inputs.fn_part1] at h0
  obtain ⟨h6, _⟩ := IntOp.andi_eq_one.1 h0
  obtain ⟨h5, _⟩ := IntOp.andi_eq_one.1 h6
  obtain ⟨h4, _⟩ := IntOp.andi_eq_one.1 h5
  obtain ⟨h3, _⟩ := IntOp.andi_eq_one.1 h4
  obtain ⟨h2, _⟩ := IntOp.andi_eq_one.1 h3
  obtain ⟨hx, hw⟩ := IntOp.andi_eq_one.1 h2
  exact ⟨fun i => Host.reduce_andi_all _ _ _ _ ix0 hx i, fun i => Host.reduce_andi_all _ _ _ _ ix0 hw i⟩

/-- EVERY NODE FEATURE IS A REAL NUMBER. -/
theorem x_real_of_pre
    (h : Cert.Pre_finite_inputs.fn (F := Ideal) a0 a1 a2 a3 a4 a5 a6 a7 = (fun _ => 1#1)) :
    ∀ i, ∃ r : ℝ, a0 i = (r : EReal) :=
  fun i => real_of_abs_lt_inf (a0 i) ((tests_of_pre h).1 i)

/-- EVERY ENTRY OF THE FIRST WEIGHT MATRIX IS A REAL NUMBER. -/
theorem W1_real_of_pre
    (h : Cert.Pre_finite_inputs.fn (F := Ideal) a0 a1 a2 a3 a4 a5 a6 a7 = (fun _ => 1#1)) :
    ∀ i, ∃ r : ℝ, a2 i = (r : EReal) :=
  fun i => real_of_abs_lt_inf (a2 i) ((tests_of_pre h).2 i)

end Decode

end Cert.Gcn

end
-- ==== Proof.lean ====
/-
  The certificate's five claims.

  The three frames: the two kernel programs' are the generated frame certificates; the reference program has no kernel
  region, and its frame is its run (the patched copy RefRun) with the results dropped. The idealization rewrote no
  operation, so `preserves` has nothing to state. The algebraic claim: the idealized kernel program's run names its two
  results (module KernelRun), the reference's run names its two (RefRun); from memories that agree on the arguments the
  four results are, entry by entry, the head of the source-scaled aggregate (module KernelValue) and the head of the
  edge-scaled aggregate (module RefValue) of the same arguments, which agree under the precondition (module Bridge:
  finite features and first-layer weights make every product-sum a real number, and over the reals the destination's
  factor moves across the sum over the edges).
-/
import proofs.«148859_j34497177322134_2_alg».proof.Defs
import proofs.«148859_j34497177322134_2_alg».proof.Proof.Gen.Kernel
import proofs.«148859_j34497177322134_2_alg».proof.Proof.Gen.Kernel.Skeleton
import proofs.«148859_j34497177322134_2_alg».proof.Proof.Gen.Kernel.Launch
import proofs.«148859_j34497177322134_2_alg».proof.Proof.Gen.Kernel.Points
import proofs.«148859_j34497177322134_2_alg».proof.Proof.Gen.Kernel.Frame
import proofs.«148859_j34497177322134_2_alg».proof.Proof.Gen.KernelIdeal
import proofs.«148859_j34497177322134_2_alg».proof.Proof.Gen.KernelIdeal.Skeleton
import proofs.«148859_j34497177322134_2_alg».proof.Proof.Gen.KernelIdeal.Launch
import proofs.«148859_j34497177322134_2_alg».proof.Proof.Gen.KernelIdeal.Points
import proofs.«148859_j34497177322134_2_alg».proof.Proof.Gen.KernelIdeal.Frame
import proofs.«148859_j34497177322134_2_alg».proof.Proof.Gen.ReferenceIdeal
import proofs.«148859_j34497177322134_2_alg».proof.Proof.Gen.Pre_finite_inputs
import proofs.«148859_j34497177322134_2_alg».proof.Proof.KernelRun
import proofs.«148859_j34497177322134_2_alg».proof.Proof.Bridge
import proofs.«148859_j34497177322134_2_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2)
    (Cert.ReferenceIdeal.ValueP.run (F := Ideal) m ρ)

theorem preserves : Cert.preserves_Kernel_KernelIdeal := trivial

/-- The first result: the two programs' entries, from memories agreeing on the arguments. -/
theorem mu_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.ReadP.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      = Cert.KernelIdeal.Gen.W6 m ρ c (Proc.devRef .tc Cert.KernelIdeal.main_v30_0) := by
  funext i
  obtain ⟨n, j, rfl⟩ : ∃ (n : Fin 100000) (j : Fin 64), i = ix2 n j := ⟨i 0, i 1, eq_ix2 i⟩
  rw [Cert.Gcn.ref_mu, Cert.Gcn.KernelValue.mu_at]
  exact (Cert.Gcn.head_aggSrc_eq_head_aggEdge _ _ _ _ _ _
    (fun r i => Cert.Gcn.x_real_of_pre (hpre c) (ix2 r i)) (fun k i => Cert.Gcn.W1_real_of_pre (hpre c) (ix2 k i)) n j).symm

/-- The second result likewise. -/
theorem lv_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.ReadP.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.Gen.W6 m ρ c (Proc.devRef .tc Cert.KernelIdeal.main_v30_1) := by
  funext i
  obtain ⟨n, j, rfl⟩ : ∃ (n : Fin 100000) (j : Fin 64), i = ix2 n j := ⟨i 0, i 1, eq_ix2 i⟩
  rw [Cert.Gcn.ref_lv, Cert.Gcn.KernelValue.lv_at]
  exact (Cert.Gcn.head_aggSrc_eq_head_aggEdge _ _ _ _ _ _
    (fun r i => Cert.Gcn.x_real_of_pre (hpre c) (ix2 r i)) (fun k i => Cert.Gcn.W1_real_of_pre (hpre c) (ix2 k i)) n j).symm

theorem algebraic : Cert.algebraic_KernelIdeal_ReferenceIdeal := by
  intro m ρ m' ρ' hpre hagree
  refine ⟨fun c => Cert.KernelIdeal.Gen.W6 m ρ c (Proc.devRef .tc Cert.KernelIdeal.main_v30_0),
    fun c => Cert.KernelIdeal.Gen.W6 m ρ c (Proc.devRef .tc Cert.KernelIdeal.main_v30_1),
    Cert.KernelIdeal.GenP.run_results (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨a0, a1, a2, a3, a4, a5, a6, a7⟩ := hagree c
    rw [Cert.ReferenceIdeal.ReadP.val_main_v53_eq, a0, a1, a2, a3, a4, a5]
    exact mu_eq m ρ hpre c
  · obtain ⟨a0, a1, a2, a3, a4, a5, a6, a7⟩ := hagree c
    rw [Cert.ReferenceIdeal.ReadP.val_main_v58_eq, a0, a1, a2, a3, a6, a7]
    exact lv_eq m ρ hpre c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
